-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x8 : Shape := ⟨2, ![128, 8]⟩
abbrev S8 : Shape := ⟨1, ![8]⟩
abbrev S8x1 : Shape := ⟨2, ![8, 1]⟩
abbrev S1 : Shape := ⟨1, ![1]⟩
abbrev S16000000 : Shape := ⟨1, ![16000000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500000x128 .f32) (main_arg1 : FVec F S128x8 .f32) (main_arg2 : FVec F S8 .f32) (main_arg3 : FVec F S8x1 .f32) (main_arg4 : FVec F S1 .f32) (main_arg5 : IVec S16000000 32) (main_arg6 : IVec S16000000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg4 main_v13 main_v16
-- ==== Kernel.lean ====
abbrev S500000x128 : Shape := ⟨2, ![500000, 128]⟩
abbrev S128x8 : Shape := ⟨2, ![128, 8]⟩
abbrev S8 : Shape := ⟨1, ![8]⟩
abbrev S8x1 : Shape := ⟨2, ![8, 1]⟩
abbrev S1 : Shape := ⟨1, ![1]⟩
abbrev S16000000 : Shape := ⟨1, ![16000000]⟩
abbrev S_ : Shape := ⟨0, ![]⟩
abbrev S500000 : Shape := ⟨1, ![500000]⟩
abbrev S16000000x1 : Shape := ⟨2, ![16000000, 1]⟩
abbrev S500000x1 : Shape := ⟨2, ![500000, 1]⟩
abbrev S500000x8 : Shape := ⟨2, ![500000, 8]⟩
abbrev S10000x128 : Shape := ⟨2, ![10000, 128]⟩
abbrev S10000x1 : Shape := ⟨2, ![10000, 1]⟩
abbrev S10000x8 : Shape := ⟨2, ![10000, 8]⟩
abbrev S16000000x8 : Shape := ⟨2, ![16000000, 8]⟩
abbrev S1x8 : Shape := ⟨2, ![1, 8]⟩
abbrev S1x1 : Shape := ⟨2, ![1, 1]⟩

abbrev nBuf : Space → Nat
  | .hbm => 59
  | .vmem => 28
  | .smem => 0
  | _ => 0

abbrev bufTy : (tb : Table) → Fin (tcTables nBuf tb) → BufTy
  | .hbm, ⟨0, _⟩ => ⟨S500000x128, .f32⟩
  | .hbm, ⟨1, _⟩ => ⟨S128x8, .f32⟩
  | .hbm, ⟨2, _⟩ => ⟨S8, .f32⟩
  | .hbm, ⟨3, _⟩ => ⟨S8x1, .f32⟩
  | .hbm, ⟨4, _⟩ => ⟨S1, .f32⟩
  | .hbm, ⟨5, _⟩ => ⟨S16000000, .i32⟩
  | .hbm, ⟨6, _⟩ => ⟨S16000000, .i32⟩
  | .hbm, ⟨7, _⟩ => ⟨S_, .f32⟩
  | .hbm, ⟨8, _⟩ => ⟨S16000000, .f32⟩
  | .hbm, ⟨9, _⟩ => ⟨S_, .f32⟩
  | .hbm, ⟨10, _⟩ => ⟨S500000, .f32⟩
  | .hbm, ⟨11, _⟩ => ⟨S16000000x1, .i32⟩
  | .hbm, ⟨12, _⟩ => ⟨S500000, .f32⟩
  | .hbm, ⟨13, _⟩ => ⟨S_, .f32⟩
  | .hbm, ⟨14, _⟩ => ⟨S500000, .f32⟩
  | .hbm, ⟨15, _⟩ => ⟨S16000000x1, .i32⟩
  | .hbm, ⟨16, _⟩ => ⟨S500000, .f32⟩
  | .hbm, ⟨17, _⟩ => ⟨S_, .f32⟩
  | .hbm, ⟨18, _⟩ => ⟨S500000, .f32⟩
  | .hbm, ⟨19, _⟩ => ⟨S500000, .f32⟩
  | .hbm, ⟨20, _⟩ => ⟨S500000, .f32⟩
  | .hbm, ⟨21, _⟩ => ⟨S500000x1, .f32⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S500000x1, .f32⟩
  | .hbm, ⟨27, _⟩ => ⟨S500000x8, .f32⟩
  | .hbm, ⟨28, _⟩ => ⟨S_, .i32⟩
  | .hbm, ⟨29, _⟩ => ⟨S16000000, .i32⟩
  | .hbm, ⟨30, _⟩ => ⟨S16000000, .i1⟩
  | .hbm, ⟨31, _⟩ => ⟨S_, .i32⟩
  | .hbm, ⟨32, _⟩ => ⟨S16000000, .i32⟩
  | .hbm, ⟨33, _⟩ => ⟨S16000000, .i32⟩
  | .hbm, ⟨34, _⟩ => ⟨S16000000, .i32⟩
  | .hbm, ⟨35, _⟩ => ⟨S16000000x1, .i32⟩
  | .hbm, ⟨36, _⟩ => ⟨S16000000x8, .f32⟩
  | .hbm, ⟨37, _⟩ => ⟨S_, .f32⟩
  | .hbm, ⟨38, _⟩ => ⟨S500000x8, .f32⟩
  | .hbm, ⟨39, _⟩ => ⟨S16000000x1, .i32⟩
  | .hbm, ⟨40, _⟩ => ⟨S500000x8, .f32⟩
  | .hbm, ⟨41, _⟩ => ⟨S1x8, .f32⟩
  | .hbm, ⟨42, _⟩ => ⟨S500000x8, .f32⟩
  | .hbm, ⟨43, _⟩ => ⟨S500000x1, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S16000000x1, .f32⟩
  | .hbm, ⟨53, _⟩ => ⟨S_, .f32⟩
  | .hbm, ⟨54, _⟩ => ⟨S500000x1, .f32⟩
  | .hbm, ⟨55, _⟩ => ⟨S16000000x1, .i32⟩
  | .hbm, ⟨56, _⟩ => ⟨S500000x1, .f32⟩
  | .hbm, ⟨57, _⟩ => ⟨S1x1, .f32⟩
  | .hbm, ⟨58, _⟩ => ⟨S500000x1, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x8, .f32⟩
  | .local _ .vmem, ⟨5, _⟩ => ⟨S10000x8, .f32⟩
  | .local _ .vmem, ⟨6, _⟩ => ⟨S10000x8, .f32⟩
  | .local _ .vmem, ⟨7, _⟩ => ⟨S10000x8, .f32⟩
  | .local _ .vmem, ⟨8, _⟩ => ⟨S10000x8, .f32⟩
  | .local _ .vmem, ⟨9, _⟩ => ⟨S10000x1, .f32⟩
  | .local _ .vmem, ⟨10, _⟩ => ⟨S10000x1, .f32⟩
  | .local _ .vmem, ⟨11, _⟩ => ⟨S1x8, .f32⟩
  | .local _ .vmem, ⟨12, _⟩ => ⟨S10000x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x1, .f32⟩
  | .local _ .vmem, ⟨17, _⟩ => ⟨S10000x1, .f32⟩
  | .local _ .vmem, ⟨18, _⟩ => ⟨S8x1, .f32⟩
  | .local _ .vmem, ⟨19, _⟩ => ⟨S10000x1, .f32⟩
  | .local _ .vmem, ⟨20, _⟩ => ⟨S10000x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  shapeCasts_S500000_S500000x1 : S500000.ShapeCasts S500000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S10000x8_S10000x8_0_0 : ∀ a, (![0, 0] : Fin 2 → Nat) a + S10000x8.size a ≤ S10000x8.size a
  h_S10000x8 : 0 < S10000x8.numel
  bcast_S_S500000x8 : S_.BroadcastsInDim S500000x8 (![] : Fin 0 → Fin S500000x8.rank)
  shapeCasts_S8_S1x8 : S8.ShapeCasts S1x8
  shapeCasts_S10000x8_S10000x8 : S10000x8.ShapeCasts S10000x8
  broadcasts_S10000x1_S10000x8 : S10000x1.Broadcasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x1_S8x1_0_0 : ∀ a, (![0, 0] : Fin 2 → Nat) a + S8x1.size a ≤ S8x1.size a
  h_S8x1 : 0 < S8x1.numel
  bcast_S_S500000x1 : S_.BroadcastsInDim S500000x1 (![] : Fin 0 → Fin S500000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S500000_S16000000x1_S16000000_n_0_0_1_wf : ScatterDims.WF S500000 S16000000x1 S16000000 [] [0] [0] 1
  dot_S10000x128_S128x8_S10000x8_1_0_0_1_n_n_wf : DotDims.WF S10000x128 S128x8 S10000x8 [1] [0] [0] [1] [] []
  gather_S500000x8_S16000000x1_S16000000x8_1_0_n_n_0_1_18_wf : GatherDims.WF S500000x8 S16000000x1 S16000000x8 [1] [0] [] [0] [] 1 ![1, 8]
  scatter_S500000x8_S16000000x1_S16000000x8_1_0_0_1_wf : ScatterDims.WF S500000x8 S16000000x1 S16000000x8 [1] [0] [0] 1
  dot_S10000x8_S8x1_S10000x1_1_0_0_1_n_n_wf : DotDims.WF S10000x8 S8x1 S10000x1 [1] [0] [0] [1] [] []
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x8.size a ≤ S500000x8.size a
  hwx0_3 : ∀ i : grid0.Coords, EltTy.bits .f32 = 32 ∨ (Rect.block (s := S500000x8) S10000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S500000x8.size a
  hwx1_0 : ∀ i : grid1.Coords, EltTy.bits .f32 = 32 ∨ (Rect.block (s := S500000x8) S10000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S500000x1.size a
  hwx1_1 : ∀ i : grid1.Coords, EltTy.bits .f32 = 32 ∨ (Rect.block (s := S500000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S500000x8.size a
  hwx1_3 : ∀ i : grid1.Coords, EltTy.bits .f32 = 32 ∨ (Rect.block (s := S500000x8) S10000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S500000x8.size a
  hwx2_0 : ∀ i : grid2.Coords, EltTy.bits .f32 = 32 ∨ (Rect.block (s := S500000x8) S10000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S500000x1.size a
  hwx2_1 : ∀ i : grid2.Coords, EltTy.bits .f32 = 32 ∨ (Rect.block (s := S500000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x1.size a ≤ S8x1.size a
  hwx2_2 : ∀ i : grid2.Coords, EltTy.bits .f32 = 32 ∨ (Rect.block (s := S8x1) S8x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S500000x1.size a
  hwx2_3 : ∀ i : grid2.Coords, EltTy.bits .f32 = 32 ∨ (Rect.block (s := S500000x1) S10000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S500000x1.size a
  hwx3_0 : ∀ i : grid3.Coords, EltTy.bits .f32 = 32 ∨ (Rect.block (s := S500000x1) S10000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S500000x1.size a
  hwx3_1 : ∀ i : grid3.Coords, EltTy.bits .f32 = 32 ∨ (Rect.block (s := S500000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S500000x1.size a
  hwx3_3 : ∀ i : grid3.Coords, EltTy.bits .f32 = 32 ∨ (Rect.block (s := S500000x1) S10000x1.size (cc3_transform_3 i) (hinb3_3 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S500000x8_S16000000x1_S16000000x8_1_0_n_n_0_1_18 : GatherDims S500000x8 S16000000x1 S16000000x8 where
  offsetDims := [1]
  collapsedSliceDims := [0]
  operandBatchingDims := []
  startIndicesBatchingDims := []
  startIndexMap := [0]
  indexVectorDim := 1
  sliceSizes := ![1, 8]
  wf := gather_S500000x8_S16000000x1_S16000000x8_1_0_n_n_0_1_18_wf
def scatter_S500000x8_S16000000x1_S16000000x8_1_0_0_1 : ScatterDims S500000x8 S16000000x1 S16000000x8 where
  updateWindowDims := [1]
  insertedWindowDims := [0]
  scatterDimsToOperandDims := [0]
  indexVectorDim := 1
  wf := scatter_S500000x8_S16000000x1_S16000000x8_1_0_0_1_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf
def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S8x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S500000x128 : Shape := ⟨2, ![500000, 128]⟩
abbrev S128x8 : Shape := ⟨2, ![128, 8]⟩
abbrev S8 : Shape := ⟨1, ![8]⟩
abbrev S8x1 : Shape := ⟨2, ![8, 1]⟩
abbrev S1 : Shape := ⟨1, ![1]⟩
abbrev S16000000 : Shape := ⟨1, ![16000000]⟩
abbrev S_ : Shape := ⟨0, ![]⟩
abbrev S500000 : Shape := ⟨1, ![500000]⟩
abbrev S16000000x1 : Shape := ⟨2, ![16000000, 1]⟩
abbrev S500000x1 : Shape := ⟨2, ![500000, 1]⟩
abbrev S500000x8 : Shape := ⟨2, ![500000, 8]⟩
abbrev S16000000x8 : Shape := ⟨2, ![16000000, 8]⟩
abbrev S1x8 : Shape := ⟨2, ![1, 8]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S128x8, .f32⟩
  | .hbm, ⟨2, _⟩ => ⟨S8, .f32⟩
  | .hbm, ⟨3, _⟩ => ⟨S8x1, .f32⟩
  | .hbm, ⟨4, _⟩ => ⟨S1, .f32⟩
  | .hbm, ⟨5, _⟩ => ⟨S16000000, .i32⟩
  | .hbm, ⟨6, _⟩ => ⟨S16000000, .i32⟩
  | .hbm, ⟨7, _⟩ => ⟨S_, .f32⟩
  | .hbm, ⟨8, _⟩ => ⟨S16000000, .f32⟩
  | .hbm, ⟨9, _⟩ => ⟨S_, .f32⟩
  | .hbm, ⟨10, _⟩ => ⟨S500000, .f32⟩
  | .hbm, ⟨11, _⟩ => ⟨S16000000x1, .i32⟩
  | .hbm, ⟨12, _⟩ => ⟨S500000, .f32⟩
  | .hbm, ⟨13, _⟩ => ⟨S_, .f32⟩
  | .hbm, ⟨14, _⟩ => ⟨S500000, .f32⟩
  | .hbm, ⟨15, _⟩ => ⟨S500000, .f32⟩
  | .hbm, ⟨16, _⟩ => ⟨S500000, .f32⟩
  | .hbm, ⟨17, _⟩ => ⟨S_, .f32⟩
  | .hbm, ⟨18, _⟩ => ⟨S16000000, .f32⟩
  | .hbm, ⟨19, _⟩ => ⟨S_, .f32⟩
  | .hbm, ⟨20, _⟩ => ⟨S500000, .f32⟩
  | .hbm, ⟨21, _⟩ => ⟨S16000000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S500000, .f32⟩
  | .hbm, ⟨27, _⟩ => ⟨S500000x1, .f32⟩
  | .hbm, ⟨28, _⟩ => ⟨S500000x128, .f32⟩
  | .hbm, ⟨29, _⟩ => ⟨S500000x128, .f32⟩
  | .hbm, ⟨30, _⟩ => ⟨S500000x8, .f32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000x8, .f32⟩
  | .hbm, ⟨40, _⟩ => ⟨S_, .f32⟩
  | .hbm, ⟨41, _⟩ => ⟨S500000x8, .f32⟩
  | .hbm, ⟨42, _⟩ => ⟨S16000000x1, .i32⟩
  | .hbm, ⟨43, _⟩ => ⟨S500000x8, .f32⟩
  | .hbm, ⟨44, _⟩ => ⟨S500000x1, .f32⟩
  | .hbm, ⟨45, _⟩ => ⟨S500000x8, .f32⟩
  | .hbm, ⟨46, _⟩ => ⟨S500000x8, .f32⟩
  | .hbm, ⟨47, _⟩ => ⟨S1x8, .f32⟩
  | .hbm, ⟨48, _⟩ => ⟨S500000x8, .f32⟩
  | .hbm, ⟨49, _⟩ => ⟨S500000x8, .f32⟩
  | .hbm, ⟨50, _⟩ => ⟨S_, .f32⟩
  | .hbm, ⟨51, _⟩ => ⟨S500000x8, .f32⟩
  | .hbm, ⟨52, _⟩ => ⟨S500000x8, .f32⟩
  | .hbm, ⟨53, _⟩ => ⟨S500000x1, .f32⟩
  | .hbm, ⟨54, _⟩ => ⟨S500000x8, .f32⟩
  | .hbm, ⟨55, _⟩ => ⟨S500000x8, .f32⟩
  | .hbm, ⟨56, _⟩ => ⟨S500000x1, .f32⟩
  | .hbm, ⟨57, _⟩ => ⟨S_, .i32⟩
  | .hbm, ⟨58, _⟩ => ⟨S16000000, .i32⟩
  | .hbm, ⟨59, _⟩ => ⟨S16000000, .i1⟩
  | .hbm, ⟨60, _⟩ => ⟨S_, .i32⟩
  | .hbm, ⟨61, _⟩ => ⟨S16000000, .i32⟩
  | .hbm, ⟨62, _⟩ => ⟨S16000000, .i32⟩
  | .hbm, ⟨63, _⟩ => ⟨S16000000, .i32⟩
  | .hbm, ⟨64, _⟩ => ⟨S16000000x1, .i32⟩
  | .hbm, ⟨65, _⟩ => ⟨S16000000x1, .f32⟩
  | .hbm, ⟨66, _⟩ => ⟨S_, .f32⟩
  | .hbm, ⟨67, _⟩ => ⟨S500000x1, .f32⟩
  | .hbm, ⟨68, _⟩ => ⟨S16000000x1, .i32⟩
  | .hbm, ⟨69, _⟩ => ⟨S500000x1, .f32⟩
  | .hbm, ⟨70, _⟩ => ⟨S500000x1, .f32⟩
  | .hbm, ⟨71, _⟩ => ⟨S500000x1, .f32⟩
  | .hbm, ⟨72, _⟩ => ⟨S1x1, .f32⟩
  | .hbm, ⟨73, _⟩ => ⟨S500000x1, .f32⟩
  | .hbm, ⟨74, _⟩ => ⟨S500000x1, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x8 : S_.BroadcastsInDim S500000x8 (![] : Fin 0 → Fin S500000x8.rank)
  bcast_S500000x1_S500000x8_0_1 : S500000x1.BroadcastsInDim S500000x8 (![0, 1] : Fin 2 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000_S16000000x1_S16000000_n_0_0_1_wf : ScatterDims.WF S500000 S16000000x1 S16000000 [] [0] [0] 1
  dot_S500000x128_S128x8_S500000x8_1_0_0_1_n_n_wf : DotDims.WF S500000x128 S128x8 S500000x8 [1] [0] [0] [1] [] []
  gather_S500000x8_S16000000x1_S16000000x8_1_0_n_n_0_1_18_wf : GatherDims.WF S500000x8 S16000000x1 S16000000x8 [1] [0] [] [0] [] 1 ![1, 8]
  scatter_S500000x8_S16000000x1_S16000000x8_1_0_0_1_wf : ScatterDims.WF S500000x8 S16000000x1 S16000000x8 [1] [0] [0] 1
  dot_S500000x8_S8x1_S500000x1_1_0_0_1_n_n_wf : DotDims.WF S500000x8 S8x1 S500000x1 [1] [0] [0] [1] [] []
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S500000x128_S128x8_S500000x8_1_0_0_1_n_n : DotDims S500000x128 S128x8 S500000x8 where
  lhsContracting := [1]
  rhsContracting := [0]
  lhsNonContracting := [0]
  rhsNonContracting := [1]
  lhsBatch := []
  rhsBatch := []
  wf := dot_S500000x128_S128x8_S500000x8_1_0_0_1_n_n_wf
def gather_S500000x8_S16000000x1_S16000000x8_1_0_n_n_0_1_18 : GatherDims S500000x8 S16000000x1 S16000000x8 where
  offsetDims := [1]
  collapsedSliceDims := [0]
  operandBatchingDims := []
  startIndicesBatchingDims := []
  startIndexMap := [0]
  indexVectorDim := 1
  sliceSizes := ![1, 8]
  wf := gather_S500000x8_S16000000x1_S16000000x8_1_0_n_n_0_1_18_wf
def scatter_S500000x8_S16000000x1_S16000000x8_1_0_0_1 : ScatterDims S500000x8 S16000000x1 S16000000x8 where
  updateWindowDims := [1]
  insertedWindowDims := [0]
  scatterDimsToOperandDims := [0]
  indexVectorDim := 1
  wf := scatter_S500000x8_S16000000x1_S16000000x8_1_0_0_1_wf
def dot_S500000x8_S8x1_S500000x1_1_0_0_1_n_n : DotDims S500000x8 S8x1 S500000x1 where
  lhsContracting := [1]
  rhsContracting := [0]
  lhsNonContracting := [0]
  rhsNonContracting := [1]
  lhsBatch := []
  rhsBatch := []
  wf := dot_S500000x8_S8x1_S500000x1_1_0_0_1_n_n_wf
def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf

class Facts : Prop extends Facts₀ where

variable [Facts]
-- ==== Proof.KRun.lean ====
/-
  The kernel program's run with its result named. The program is seven segments: host operations, the first dense
  stage, host operations, the second and third dense stages, host operations, the last dense stage. Every weakly fair
  execution terminates, and at the end each buffer that outlives the stages holds what the fold of the segments leaves
  in it (`W7`): in particular the result array, and the seven argument arrays, which nothing writes.
-/
import proofs.«113561_j2388001816782_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v40 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Val

end
-- ==== Proof.Spec.lean ====
/-
  What the kernel computes, as whole-array functions of the argument arrays, at the extended reals.

  The program is a two-layer graph convolution over 500000 nodes and 16000000 edges (src → dst):
    norm(idx)   = 1 / sqrt (max (number of edges whose endpoint list `idx` names the node) 1)      (per node)
    layer(H, W, b) = (sum over edges into the node of ((H ⊙ norm src) · W) at the edge's source) ⊙ norm dst + b
    result      = layer (relu (layer (x, W1, b1)), W2, b2).
  The dense pieces are the four functions below (row scaling followed by a matrix product; row scaling, bias and
  relu; the same two once more at widths 8 → 1); the sparse pieces (degree count, gather along src, scatter-add along
  dst) are the host's own operations, carried here as whole functions and never opened.
-/
import proofs.«113561_j2388001816782_2_alg».proof.Proof.Gen.KernelIdeal.Skeleton
import Idealize.ShloMosaic.Lib.ValueIdx
import Idealize.ShloMosaic.PureOps.Ideal.Laws

noncomputable section

namespace Cert.KernelIdeal.Val

open Cert.KernelIdeal Cert.KernelIdeal.Facts₀ Idealize.ShloMosaic Idealize.ShloMosaic.ValueIdx

/-- The zero offset of a whole-block access, as a function. -/
theorem hz : (![0, 0] : Fin 2 → Nat) = fun _ => 0 := funext fun a => by fin_cases a <;> rfl

/-! ## The dense stages, index by index -/

/-- Row `r` of `X` scaled by `N r`, then multiplied into `W`: entry `(r, c)` is `∑ k, (X r k · N r) · W k c`. -/
def scaleDot128 (X : FVec Ideal S500000x128 .f32) (N : FVec Ideal S500000x1 .f32) (W : FVec Ideal S128x8 .f32) :
    FVec Ideal S500000x8 .f32 :=
  fun i => ∑ k : Fin 128, (X (ix2 (i 0) k) * N (ix2 (i 0) 0)) * W (ix2 k (i 1))

/-- The same at the second layer's widths: entry `(r, 0)` is `∑ k, (H r k · N r) · W k 0`. -/
def scaleDot8 (H : FVec Ideal S500000x8 .f32) (N : FVec Ideal S500000x1 .f32) (W : FVec Ideal S8x1 .f32) :
    FVec Ideal S500000x1 .f32 :=
  fun i => ∑ k : Fin 8, (H (ix2 (i 0) k) * N (ix2 (i 0) 0)) * W (ix2 k (i 1))

/-- Row `r` of `A` scaled by `N r`, the bias row added, then the positive part. -/
def scaleBiasRelu (A : FVec Ideal S500000x8 .f32) (N : FVec Ideal S500000x1 .f32) (B : FVec Ideal S1x8 .f32) :
    FVec Ideal S500000x8 .f32 :=
  fun i => max (A i * N (ix2 (i 0) 0) + B (ix2 0 (i 1))) (Ideal.ofBits .f32 0x00000000#32)

/-- Entry `r` of `A` scaled by `N r`, the one bias added. -/
def scaleBias (A : FVec Ideal S500000x1 .f32) (N : FVec Ideal S500000x1 .f32) (B : FVec Ideal S1x1 .f32) :
    FVec Ideal S500000x1 .f32 :=
  fun i => A i * N i + B (ix2 0 0)

/-! ## The sparse stages, as the host computes them -/

/-- `1 / sqrt (max deg 1)` per node, `deg` the number of entries of `idx` naming the node (a scatter-add of ones). -/
def degNorm (idx : IVec S16000000 32) : FVec Ideal S500000 .f32 :=
  Host.rsqrt (maximumf
    (Host.scatterAdd scatter_S500000_S16000000x1_S16000000_n_0_0_1
      (broadcastInDim S500000 ![] bcast_S_S500000 (constant (F := Ideal) S_ .f32 0x00000000#32))
      (broadcastInDim S16000000x1 ![0] bcast_S16000000_S16000000x1_0 idx)
      (broadcastInDim S16000000 ![] bcast_S_S16000000 (constant (F := Ideal) S_ .f32 0x3F800000#32)))
    (broadcastInDim S500000 ![] bcast_S_S500000 (constant (F := Ideal) S_ .f32 0x3F800000#32)))

/-- The edge list's source entries with a negative entry wrapped once by the node count (numpy's indexing). -/
def wrapIdx (src : IVec S16000000 32) : IVec S16000000x1 32 :=
  broadcastInDim S16000000x1 ![0] bcast_S16000000_S16000000x1_0
    (select (cmpi .slt src (broadcastInDim S16000000 ![] bcast_S_S16000000 (constantI S_ 32 0#32)))
      (addi src (broadcastInDim S16000000 ![] bcast_S_S16000000 (constantI S_ 32 500000#32))) src)

/-- Rows of `H` gathered along the edges' sources and added into the edges' destinations (width 8). -/
def aggregate8 (H : FVec Ideal S500000x8 .f32) (src dst : IVec S16000000 32) : FVec Ideal S500000x8 .f32 :=
  Host.scatterAdd scatter_S500000x8_S16000000x1_S16000000x8_1_0_0_1
    (broadcastInDim S500000x8 ![] bcast_S_S500000x8 (constant (F := Ideal) S_ .f32 0x00000000#32))
    (broadcastInDim S16000000x1 ![0] bcast_S16000000_S16000000x1_0 dst)
    (Host.gather gather_S500000x8_S16000000x1_S16000000x8_1_0_n_n_0_1_18 H (wrapIdx src))

/-- The same at width 1. -/
def aggregate1 (H : FVec Ideal S500000x1 .f32) (src dst : IVec S16000000 32) : FVec Ideal S500000x1 .f32 :=
  Host.scatterAdd scatter_S500000x1_S16000000x1_S16000000x1_1_0_0_1
    (broadcastInDim S500000x1 ![] bcast_S_S500000x1 (constant (F := Ideal) S_ .f32 0x00000000#32))
    (broadcastInDim S16000000x1 ![0] bcast_S16000000_S16000000x1_0 dst)
    (Host.gather gather_S500000x1_S16000000x1_S16000000x1_1_0_n_n_0_1_11 H (wrapIdx src))

/-! ## The result -/

/-- The per-node factor as the column the dense stages read. -/
def normCol (idx : IVec S16000000 32) : FVec Ideal S500000x1 .f32 :=
  shapeCast S500000x1 (degNorm idx) shapeCasts_S500000_S500000x1

/-- The first layer's output after relu. -/
def hidden (x : FVec Ideal S500000x128 .f32) (w1 : FVec Ideal S128x8 .f32) (b1 : FVec Ideal S8 .f32)
    (src dst : IVec S16000000 32) : FVec Ideal S500000x8 .f32 :=
  scaleBiasRelu (aggregate8 (scaleDot128 x (normCol src) w1) src dst) (normCol dst) (shapeCast S1x8 b1 shapeCasts_S8_S1x8)

/-- The whole program's result array as one function of the seven argument arrays. -/
def result (x : FVec Ideal S500000x128 .f32) (w1 : FVec Ideal S128x8 .f32) (b1 : FVec Ideal S8 .f32)
    (w2 : FVec Ideal S8x1 .f32) (b2 : FVec Ideal S1 .f32) (src dst : IVec S16000000 32) : FVec Ideal S500000x1 .f32 :=
  scaleBias (aggregate1 (scaleDot8 (hidden x w1 b1 src dst) (normCol src) w2) src dst) (normCol dst)
    (shapeCast S1x1 b2 shapeCasts_S1_S1x1)

end Cert.KernelIdeal.Val

end
-- ==== Proof.Pay0.lean ====
/-
  The first dense stage's block computation read at an index: a block of rows, each scaled by its own factor,
  multiplied into the weight matrix with a zero accumulator, is entry by entry the sum over the contracted axis.
  (The narrowing of the two operands to a shorter float format before the product is the identity at the extended reals.)
-/
import proofs.«113561_j2388001816782_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

theorem lhs0_0 (j : S10000x8.Idx) (q : dot_S10000x128_S128x8_S10000x8_1_0_0_1_n_n.contr.Idx) :
    (dot_S10000x128_S128x8_S10000x8_1_0_0_1_n_n.lhsIdx j q 0).val = (j 0).val := by
  unfold DotDims.lhsIdx
  rw [dif_neg (show ¬(0 : Fin S10000x128.rank) ∈ dot_S10000x128_S128x8_S10000x8_1_0_0_1_n_n.lhsBatch by decide), dif_pos (show (0 : Fin S10000x128.rank) ∈ dot_S10000x128_S128x8_S10000x8_1_0_0_1_n_n.lhsNonContracting by decide)]
  rfl
theorem lhs0_1 (j : S10000x8.Idx) (q : dot_S10000x128_S128x8_S10000x8_1_0_0_1_n_n.contr.Idx) :
    (dot_S10000x128_S128x8_S10000x8_1_0_0_1_n_n.lhsIdx j q 1).val = (q ⟨0, by decide⟩).val :=
  dot_S10000x128_S128x8_S10000x8_1_0_0_1_n_n.lhsIdx_val_of_single rfl j q
theorem rhs0_0 (j : S10000x8.Idx) (q : dot_S10000x128_S128x8_S10000x8_1_0_0_1_n_n.contr.Idx) :
    (dot_S10000x128_S128x8_S10000x8_1_0_0_1_n_n.rhsIdx j q 0).val = (q ⟨0, by decide⟩).val :=
  dot_S10000x128_S128x8_S10000x8_1_0_0_1_n_n.rhsIdx_val_of_single rfl j q
theorem rhs0_1 (j : S10000x8.Idx) (q : dot_S10000x128_S128x8_S10000x8_1_0_0_1_n_n.contr.Idx) :
    (dot_S10000x128_S128x8_S10000x8_1_0_0_1_n_n.rhsIdx j q 1).val = (j 1).val := by
  unfold DotDims.rhsIdx
  rw [dif_neg (show ¬(1 : Fin S128x8.rank) ∈ dot_S10000x128_S128x8_S10000x8_1_0_0_1_n_n.rhsBatch by decide), dif_pos (show (1 : Fin S128x8.rank) ∈ dot_S10000x128_S128x8_S10000x8_1_0_0_1_n_n.rhsNonContracting by decide)]
  rfl

/-- Entry `(p, q)` of the block product: `∑ k, (x0 p k · x1 p 0) · x2 k q`. -/
theorem pay0_apply (x0 : FVec Ideal S10000x128 .f32) (x1 : FVec Ideal S10000x1 .f32) (x2 : FVec Ideal S128x8 .f32)
    (p : Fin 10000) (q : Fin 8) :
    k0_pay1 (F := Ideal) x0 x1 x2 (ix2 p q) = ∑ k : Fin 128, (x0 (ix2 p k) * x1 (ix2 p 0)) * x2 (ix2 k q) := by
  unfold k0_pay1
  simp only [matmul]
  rw [Ideal.matmul_constant_zero_apply, ← Equiv.sum_comp (ValueIdx.contrEquiv1 dot_S10000x128_S128x8_S10000x8_1_0_0_1_n_n 128 rfl rfl).symm]
  refine Finset.sum_congr rfl fun k _ => ?_
  have hk := ValueIdx.contrEquiv1_symm_val dot_S10000x128_S128x8_S10000x8_1_0_0_1_n_n 128 rfl rfl k
  have el : dot_S10000x128_S128x8_S10000x8_1_0_0_1_n_n.lhsIdx (ix2 p q) ((ValueIdx.contrEquiv1 dot_S10000x128_S128x8_S10000x8_1_0_0_1_n_n 128 rfl rfl).symm k) = ix2 p k := funext fun a => Fin.ext (by
    match a with
    | ⟨0, _⟩ => exact lhs0_0 _ _
    | ⟨1, _⟩ => exact (lhs0_1 _ _).trans hk)
  have er : dot_S10000x128_S128x8_S10000x8_1_0_0_1_n_n.rhsIdx (ix2 p q) ((ValueIdx.contrEquiv1 dot_S10000x128_S128x8_S10000x8_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  show (x0 (ix2 p k) * broadcastTo S10000x128 (shapeCast S10000x1 x1 shapeCasts_S10000x1_S10000x1) broadcasts_S10000x1_S10000x128 (ix2 p k)) * x2 (ix2 k q) = _
  rw [shapeCast_self, broadcastTo_apply x1 broadcasts_S10000x1_S10000x128 (ix2 p k) (ix2 p 0) (fun a => by
    match a with
    | ⟨0, _⟩ => show p.val = if (10000 : Nat) = 1 then 0 else p.val; rw [if_neg (by decide)]
    | ⟨1, _⟩ => show 0 = if (1 : Nat) = 1 then 0 else k.val; rw [if_pos rfl])]

end Cert.KernelIdeal.Val

end
-- ==== Proof.Reg0.lean ====
/-
  The first dense stage over the whole array. The grid has 50 points; point t reads rows 10000·t … 10000·t + 9999
  of the feature matrix and of the factor column, the whole weight matrix, and writes the same rows of the output.
  So what point t writes back is block t of `scaleDot128` of the three arrays as the stage finds them, and the 50
  blocks tile the output: the output array ends as `scaleDot128` of the inputs.
-/
import proofs.«113561_j2388001816782_2_alg».proof.Proof.Gen.KernelIdeal.Frame
import proofs.«113561_j2388001816782_2_alg».proof.Proof.Spec
import proofs.«113561_j2388001816782_2_alg».proof.Proof.Pay0
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices of the four windows at every grid point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows `10000 t …` of the feature matrix. -/
theorem iblk0_0_apply (c : Dev nD) (t : Fin cfg0.N) (y : S10000x128.Idx) (i : S500000x128.Idx)
    (h0 : (i 0).val = t.val * 10000 + (y 0).val) (h1 : (i 1).val = (y 1).val) :
    (iblk0 V c 0 t : Vec Ideal S10000x128 .f32) y = (V c main_arg0 : S500000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The factor block at point `t` is rows `10000 t …` of the factor column. -/
theorem iblk0_1_apply (c : Dev nD) (t : Fin cfg0.N) (y : S10000x1.Idx) (i : S500000x1.Idx)
    (h0 : (i 0).val = t.val * 10000 + (y 0).val) (h1 : (i 1).val = (y 1).val) :
    (iblk0 V c 1 t : Vec Ideal S10000x1 .f32) y = (V c main_v10 : S500000x1.Idx → EReal) i := by
  obtain ⟨-, -, e0, e1, -⟩ := idx_facts0 t
  unfold iblk0
  rw [View.read_apply]
  show V c main_v10 _ = V c main_v10 _
  congr 1
  funext a
  apply Fin.ext
  match a with
  | ⟨0, _⟩ => show win0_1.index t 0 * 10000 + 1 * (y 0).val = (i 0).val; rw [e0, h0]; omega
  | ⟨1, _⟩ => show win0_1.index t 1 * 1 + 1 * (y 1).val = (i 1).val; rw [e1, h1]; omega

/-- The weight block at every point is the whole weight matrix. -/
theorem iblk0_2_apply (c : Dev nD) (t : Fin cfg0.N) (y : S128x8.Idx) :
    (iblk0 V c 2 t : Vec Ideal S128x8 .f32) y = (V c main_arg1 : S128x8.Idx → EReal) y := by
  obtain ⟨-, -, -, -, e0, e1, -⟩ := idx_facts0 t
  unfold iblk0
  rw [View.read_apply]
  show V c main_arg1 _ = V c main_arg1 _
  congr 1
  funext a
  apply Fin.ext
  match a with
  | ⟨0, _⟩ => show win0_2.index t 0 * 128 + 1 * (y 0).val = (y 0).val; rw [e0]; omega
  | ⟨1, _⟩ => show win0_2.index t 1 * 8 + 1 * (y 1).val = (y 1).val; rw [e1]; omega

/-- A block of the stage: if the three loaded blocks are rows `10000 T …` of `X` and `N` and the whole of `W`, the
    block product at `j` is `scaleDot128 X N W` at row `10000 T + j 0`, column `j 1`. -/
theorem block0 (X : FVec Ideal S500000x128 .f32) (N : FVec Ideal S500000x1 .f32) (W : FVec Ideal S128x8 .f32)
    (x0 : FVec Ideal S10000x128 .f32) (x1 : FVec Ideal S10000x1 .f32) (x2 : FVec Ideal S128x8 .f32) (T : Nat)
    (h0 : ∀ (y : S10000x128.Idx) (i : S500000x128.Idx), (i 0).val = T * 10000 + (y 0).val → (i 1).val = (y 1).val → x0 y = X i)
    (h1 : ∀ (y : S10000x1.Idx) (i : S500000x1.Idx), (i 0).val = T * 10000 + (y 0).val → (i 1).val = (y 1).val → x1 y = N i)
    (h2 : ∀ y : S128x8.Idx, x2 y = W y)
    (j : S10000x8.Idx) (i : S500000x8.Idx) (hi0 : (i 0).val = T * 10000 + (j 0).val) (hi1 : (i 1).val = (j 1).val) :
    k0_pay1 (F := Ideal) x0 x1 x2 j = scaleDot128 X N W i := by
  obtain ⟨p, q, rfl⟩ : ∃ (p : Fin 10000) (q : Fin 8), j = ix2 p q := ⟨j 0, j 1, eq_ix2 j⟩
  obtain ⟨r, q', rfl⟩ : ∃ (r : Fin 500000) (q' : Fin 8), i = ix2 r q' := ⟨i 0, i 1, eq_ix2 i⟩
  obtain rfl : q' = q := Fin.ext hi1
  rw [pay0_apply]
  unfold scaleDot128
  refine Finset.sum_congr rfl fun k _ => ?_
  show (x0 (ix2 p k) * x1 (ix2 p 0)) * x2 (ix2 k q') = (X (ix2 r k) * N (ix2 r 0)) * W (ix2 k q')
  rw [h0 (ix2 p k) (ix2 r k) hi0 rfl, h1 (ix2 p 0) (ix2 r 0) hi0 rfl, h2]

/-- WHAT POINT `t` WRITES BACK is block `t` of `scaleDot128` of the arrays as the stage finds them. -/
theorem flushed0_eq (c : Dev nD) (t : Fin cfg0.N) :
    (dat0 V c).flushed 3 t
      = ((cfg0.win 3).blk t).view.read (Elt Ideal) (scaleDot128 (V c main_arg0) (V c main_v10) (V c main_arg1)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x8) hz]
  obtain ⟨-, -, -, -, -, -, e6, e7⟩ := idx_facts0 t
  funext j
  rw [View.read_apply]
  refine block0 _ _ _ _ _ _ t.val (fun y i h0 h1 => iblk0_0_apply V c t y i h0 h1) (fun y i h0 h1 => iblk0_1_apply V c t y i h0 h1)
    (fun y => iblk0_2_apply V c t y) j _ ?_ ?_
  · show win0_3.index t 0 * 10000 + 1 * (j 0).val = t.val * 10000 + (j 0).val; rw [e6]; omega
  · show win0_3.index t 1 * 8 + 1 * (j 1).val = (j 1).val; rw [e7]; omega

/-- An index of the output is in point `t`'s block iff each coordinate is in the block's range on its axis. -/
theorem mem_blk0 (t : Fin cfg0.N) (i : S500000x8.Idx) :
    i ∈ ((cfg0.win 3).blk t).view.set ↔ ∀ a : Fin 2, win0_3.index t a * S10000x8.size a ≤ (i a).val ∧ (i a).val < win0_3.index t a * S10000x8.size a + S10000x8.size a := by
  show i ∈ ((View.whole main_v15).slice (win0_3.rect t)).set ↔ _
  rw [View.set_slice_whole, Rect.mem_set_unit]
  exact Iff.rfl

/-- Row `r` of the output is in the block of point `r / 10000`. -/
theorem cover0 (i : S500000x8.Idx) : ∃ t : Fin cfg0.N, (cfg0.win 3).flush t = true ∧ i ∈ ((cfg0.win 3).blk t).view.set := by
  have hi0 : (i 0).val < 500000 := (i 0).isLt
  have hi1 : (i 1).val < 8 := (i 1).isLt
  have hN : cfg0.N = 50 := N_0
  have ht : (i 0).val / 10000 < cfg0.N := by rw [hN]; omega
  obtain ⟨-, -, -, -, -, -, e6, e7⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ 0 * 10000 ≤ (i 0).val ∧ (i 0).val < win0_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ 1 * 8 ≤ (i 1).val ∧ (i 1).val < win0_3.index ⟨(i 0).val / 10000, ht⟩ 1 * 8 + 8
    rw [e7]; omega

/-- THE STAGE'S OUTPUT ARRAY: `scaleDot128` of the arrays the stage finds. -/
theorem region0 (c : Dev nD) :
    (dat0 V c).arrAt 3 cfg0.N = scaleDot128 (V c main_arg0) (V c main_v10) (V c main_arg1) :=
  (dat0 V c).arrAt_eq_of_cover 3 _ (fun t _ => flushed0_eq V c t) cover0

end Cert.KernelIdeal.Val

end
-- ==== Proof.Pay1.lean ====
/-
  The first layer's scale–bias–relu block computation read at an index: entry (p, q) of the block of aggregated
  features times the row's factor, plus the bias entry q, then the larger of that and zero.
-/
import proofs.«113561_j2388001816782_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- Entry `(p, q)`: `max (x0 p q · x1 p 0 + x2 0 q) 0`. -/
theorem pay1_apply (x0 : FVec Ideal S10000x8 .f32) (x1 : FVec Ideal S10000x1 .f32) (x2 : FVec Ideal S1x8 .f32)
    (p : Fin 10000) (q : Fin 8) :
    k1_pay1 (F := Ideal) x0 x1 x2 (ix2 p q)
      = max (x0 (ix2 p q) * x1 (ix2 p 0) + x2 (ix2 0 q)) (Ideal.ofBits .f32 0x00000000#32) := by
  unfold k1_pay1
  show max (shapeCast S10000x8 x0 shapeCasts_S10000x8_S10000x8 (ix2 p q) * broadcastTo S10000x8 (shapeCast S10000x1 x1 shapeCasts_S10000x1_S10000x1) broadcasts_S10000x1_S10000x8 (ix2 p q)
      + broadcastTo S10000x8 (shapeCast S1x8 x2 shapeCasts_S1x8_S1x8) broadcasts_S1x8_S10000x8 (ix2 p q)) _ = _
  rw [shapeCast_self, shapeCast_self, shapeCast_self,
    broadcastTo_apply x1 broadcasts_S10000x1_S10000x8 (ix2 p q) (ix2 p 0) (fun a => by
      match a with
      | ⟨0, _⟩ => show p.val = if (10000 : Nat) = 1 then 0 else p.val; rw [if_neg (by decide)]
      | ⟨1, _⟩ => show 0 = if (1 : Nat) = 1 then 0 else q.val; rw [if_pos rfl]),
    broadcastTo_apply x2 broadcasts_S1x8_S10000x8 (ix2 p q) (ix2 0 q) (fun a => by
      match a with
      | ⟨0, _⟩ => show 0 = if (1 : Nat) = 1 then 0 else p.val; rw [if_pos rfl]
      | ⟨1, _⟩ => show q.val = if (8 : Nat) = 1 then 0 else q.val; rw [if_neg (by decide)])]
  rfl

end Cert.KernelIdeal.Val

end
-- ==== Proof.Reg1.lean ====
/-
  The first layer's scale–bias–relu stage over the whole array. Point t of the 50 reads rows 10000·t … of the
  aggregated features and of the factor column, the whole bias row, and writes the same rows of the output; the 50
  blocks tile the output, so it ends as `scaleBiasRelu` of the arrays the stage finds.
-/
import proofs.«113561_j2388001816782_2_alg».proof.Proof.Gen.KernelIdeal.Frame
import proofs.«113561_j2388001816782_2_alg».proof.Proof.Spec
import proofs.«113561_j2388001816782_2_alg».proof.Proof.Pay1
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices of the four windows at every grid point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first operand's block at point `t` is rows `10000 t …` of its array. -/
theorem iblk1_0_apply (c : Dev nD) (t : Fin cfg1.N) (y : S10000x8.Idx) (i : S500000x8.Idx)
    (h0 : (i 0).val = t.val * 10000 + (y 0).val) (h1 : (i 1).val = (y 1).val) :
    (iblk1 V c 0 t : Vec Ideal S10000x8 .f32) y = (V c main_v25 : S500000x8.Idx → EReal) i := by
  obtain ⟨e0, e1, -⟩ := idx_facts1 t
  unfold iblk1
  rw [View.read_apply]
  show V c main_v25 _ = V c main_v25 _
  congr 1
  funext a
  apply Fin.ext
  match a with
  | ⟨0, _⟩ => show win1_0.index t 0 * 10000 + 1 * (y 0).val = (i 0).val; rw [e0, h0]; omega
  | ⟨1, _⟩ => show win1_0.index t 1 * 8 + 1 * (y 1).val = (i 1).val; rw [e1, h1]; omega

/-- The factor block at point `t` is rows `10000 t …` of the factor column. -/
theorem iblk1_1_apply (c : Dev nD) (t : Fin cfg1.N) (y : S10000x1.Idx) (i : S500000x1.Idx)
    (h0 : (i 0).val = t.val * 10000 + (y 0).val) (h1 : (i 1).val = (y 1).val) :
    (iblk1 V c 1 t : Vec Ideal S10000x1 .f32) y = (V c main_v14 : S500000x1.Idx → EReal) i := by
  obtain ⟨-, -, e0, e1, -⟩ := idx_facts1 t
  unfold iblk1
  rw [View.read_apply]
  show V c main_v14 _ = V c main_v14 _
  congr 1
  funext a
  apply Fin.ext
  match a with
  | ⟨0, _⟩ => show win1_1.index t 0 * 10000 + 1 * (y 0).val = (i 0).val; rw [e0, h0]; omega
  | ⟨1, _⟩ => show win1_1.index t 1 * 1 + 1 * (y 1).val = (i 1).val; rw [e1, h1]; omega

/-- The small operand's block at every point is the whole of it. -/
theorem iblk1_2_apply (c : Dev nD) (t : Fin cfg1.N) (y : S1x8.Idx) :
    (iblk1 V c 2 t : Vec Ideal S1x8 .f32) y = (V c main_v26 : S1x8.Idx → EReal) y := by
  obtain ⟨-, -, -, -, e0, e1, -⟩ := idx_facts1 t
  unfold iblk1
  rw [View.read_apply]
  show V c main_v26 _ = V c main_v26 _
  congr 1
  funext a
  apply Fin.ext
  match a with
  | ⟨0, _⟩ => show win1_2.index t 0 * 1 + 1 * (y 0).val = (y 0).val; rw [e0]; omega
  | ⟨1, _⟩ => show win1_2.index t 1 * 8 + 1 * (y 1).val = (y 1).val; rw [e1]; omega

/-- A block of the stage: if the loaded blocks are rows `10000 T …` of `A` and `N` and the whole of `C`, the block
    computation at `j` is `scaleBiasRelu A N C` at row `10000 T + j 0`, column `j 1`. -/
theorem block1 (A : FVec Ideal S500000x8 .f32) (N : FVec Ideal S500000x1 .f32) (C : FVec Ideal S1x8 .f32)
    (x0 : FVec Ideal S10000x8 .f32) (x1 : FVec Ideal S10000x1 .f32) (x2 : FVec Ideal S1x8 .f32) (T : Nat)
    (h0 : ∀ (y : S10000x8.Idx) (i : S500000x8.Idx), (i 0).val = T * 10000 + (y 0).val → (i 1).val = (y 1).val → x0 y = A i)
    (h1 : ∀ (y : S10000x1.Idx) (i : S500000x1.Idx), (i 0).val = T * 10000 + (y 0).val → (i 1).val = (y 1).val → x1 y = N i)
    (h2 : ∀ y : S1x8.Idx, x2 y = C y)
    (j : S10000x8.Idx) (i : S500000x8.Idx) (hi0 : (i 0).val = T * 10000 + (j 0).val) (hi1 : (i 1).val = (j 1).val) :
    k1_pay1 (F := Ideal) x0 x1 x2 j = scaleBiasRelu A N C i := by
  obtain ⟨p, q, rfl⟩ : ∃ (p : Fin 10000) (q : Fin 8), j = ix2 p q := ⟨j 0, j 1, eq_ix2 j⟩
  obtain ⟨r, q', rfl⟩ : ∃ (r : Fin 500000) (q' : Fin 8), i = ix2 r q' := ⟨i 0, i 1, eq_ix2 i⟩
  obtain rfl : q' = q := Fin.ext hi1
  rw [pay1_apply]
  unfold scaleBiasRelu
  show max (x0 (ix2 p q') * x1 (ix2 p 0) + x2 (ix2 0 q')) _ = max (A (ix2 r q') * N (ix2 r 0) + C (ix2 0 q')) _
  rw [h0 (ix2 p q') (ix2 r q') hi0 rfl, h1 (ix2 p 0) (ix2 r 0) hi0 rfl, h2]

/-- WHAT POINT `t` WRITES BACK is block `t` of `scaleBiasRelu` of the arrays as the stage finds them. -/
theorem flushed1_eq (c : Dev nD) (t : Fin cfg1.N) :
    (dat1 V c).flushed 3 t
      = ((cfg1.win 3).blk t).view.read (Elt Ideal) (scaleBiasRelu (V c main_v25) (V c main_v14) (V c main_v26)) := by
  show (cfg1.win 3).cut (grid1.coords t) ((dat1 V c).after 3 t) = _
  rw [after1_3]
  unfold out1_3
  rw [View.canon_unit_zero hz]
  simp only [View.ld_unit_zero (S := S10000x8) hz, View.ld_unit_zero (S := S10000x1) hz, View.ld_unit_zero (S := S1x8) hz]
  obtain ⟨-, -, -, -, -, -, e6, e7⟩ := idx_facts1 t
  funext j
  rw [View.read_apply]
  refine block1 _ _ _ _ _ _ t.val (fun y i h0 h1 => iblk1_0_apply V c t y i h0 h1) (fun y i h0 h1 => iblk1_1_apply V c t y i h0 h1)
    (fun y => iblk1_2_apply V c t y) j _ ?_ ?_
  · show win1_3.index t 0 * 10000 + 1 * (j 0).val = t.val * 10000 + (j 0).val; rw [e6]; omega
  · show win1_3.index t 1 * 8 + 1 * (j 1).val = (j 1).val; rw [e7]; omega

/-- An index of the output is in point `t`'s block iff each coordinate is in the block's range on its axis. -/
theorem mem_blk1 (t : Fin cfg1.N) (i : S500000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v27).slice (win1_3.rect t)).set ↔ _
  rw [View.set_slice_whole, Rect.mem_set_unit]
  exact Iff.rfl

/-- Row `r` of the output is in the block of point `r / 10000`. -/
theorem cover1 (i : S500000x8.Idx) : ∃ t : Fin cfg1.N, (cfg1.win 3).flush t = true ∧ i ∈ ((cfg1.win 3).blk t).view.set := by
  have hi0 : (i 0).val < 500000 := (i 0).isLt
  have hi1 : (i 1).val < 8 := (i 1).isLt
  have hN : cfg1.N = 50 := N_1
  have ht : (i 0).val / 10000 < cfg1.N := by rw [hN]; omega
  obtain ⟨-, -, -, -, -, -, e6, e7⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ 0 * 10000 ≤ (i 0).val ∧ (i 0).val < win1_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ 1 * 8 ≤ (i 1).val ∧ (i 1).val < win1_3.index ⟨(i 0).val / 10000, ht⟩ 1 * 8 + 8
    rw [e7]; omega

/-- THE STAGE'S OUTPUT ARRAY: `scaleBiasRelu` of the arrays the stage finds. -/
theorem region1 (c : Dev nD) :
    (dat1 V c).arrAt 3 cfg1.N = scaleBiasRelu (V c main_v25) (V c main_v14) (V c main_v26) :=
  (dat1 V c).arrAt_eq_of_cover 3 _ (fun t _ => flushed1_eq V c t) cover1

end Cert.KernelIdeal.Val

end
-- ==== Proof.Pay2.lean ====
/-
  The second layer's dense product, block by block, read at an index: a block of rows of the hidden features, each
  scaled by its own factor, multiplied into the 8 × 1 weight column with a zero accumulator, is the sum over the
  contracted axis. (The narrowing of the operands before the product is the identity at the extended reals.)
-/
import proofs.«113561_j2388001816782_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

theorem lhs2_0 (j : S10000x1.Idx) (q : dot_S10000x8_S8x1_S10000x1_1_0_0_1_n_n.contr.Idx) :
    (dot_S10000x8_S8x1_S10000x1_1_0_0_1_n_n.lhsIdx j q 0).val = (j 0).val := by
  unfold DotDims.lhsIdx
  rw [dif_neg (show ¬(0 : Fin S10000x8.rank) ∈ dot_S10000x8_S8x1_S10000x1_1_0_0_1_n_n.lhsBatch by decide), dif_pos (show (0 : Fin S10000x8.rank) ∈ dot_S10000x8_S8x1_S10000x1_1_0_0_1_n_n.lhsNonContracting by decide)]
  rfl
theorem lhs2_1 (j : S10000x1.Idx) (q : dot_S10000x8_S8x1_S10000x1_1_0_0_1_n_n.contr.Idx) :
    (dot_S10000x8_S8x1_S10000x1_1_0_0_1_n_n.lhsIdx j q 1).val = (q ⟨0, by decide⟩).val :=
  dot_S10000x8_S8x1_S10000x1_1_0_0_1_n_n.lhsIdx_val_of_single rfl j q
theorem rhs2_0 (j : S10000x1.Idx) (q : dot_S10000x8_S8x1_S10000x1_1_0_0_1_n_n.contr.Idx) :
    (dot_S10000x8_S8x1_S10000x1_1_0_0_1_n_n.rhsIdx j q 0).val = (q ⟨0, by decide⟩).val :=
  dot_S10000x8_S8x1_S10000x1_1_0_0_1_n_n.rhsIdx_val_of_single rfl j q
theorem rhs2_1 (j : S10000x1.Idx) (q : dot_S10000x8_S8x1_S10000x1_1_0_0_1_n_n.contr.Idx) :
    (dot_S10000x8_S8x1_S10000x1_1_0_0_1_n_n.rhsIdx j q 1).val = (j 1).val := by
  unfold DotDims.rhsIdx
  rw [dif_neg (show ¬(1 : Fin S8x1.rank) ∈ dot_S10000x8_S8x1_S10000x1_1_0_0_1_n_n.rhsBatch by decide), dif_pos (show (1 : Fin S8x1.rank) ∈ dot_S10000x8_S8x1_S10000x1_1_0_0_1_n_n.rhsNonContracting by decide)]
  rfl

/-- Entry `(p, q)` of the block product: `∑ k, (x0 p k · x1 p 0) · x2 k q`. -/
theorem pay2_apply (x0 : FVec Ideal S10000x8 .f32) (x1 : FVec Ideal S10000x1 .f32) (x2 : FVec Ideal S8x1 .f32)
    (p : Fin 10000) (q : Fin 1) :
    k2_pay1 (F := Ideal) x0 x1 x2 (ix2 p q) = ∑ k : Fin 8, (x0 (ix2 p k) * x1 (ix2 p 0)) * x2 (ix2 k q) := by
  unfold k2_pay1
  simp only [matmul]
  rw [Ideal.matmul_constant_zero_apply, ← Equiv.sum_comp (ValueIdx.contrEquiv1 dot_S10000x8_S8x1_S10000x1_1_0_0_1_n_n 8 rfl rfl).symm]
  refine Finset.sum_congr rfl fun k _ => ?_
  have hk := ValueIdx.contrEquiv1_symm_val dot_S10000x8_S8x1_S10000x1_1_0_0_1_n_n 8 rfl rfl k
  have el : dot_S10000x8_S8x1_S10000x1_1_0_0_1_n_n.lhsIdx (ix2 p q) ((ValueIdx.contrEquiv1 dot_S10000x8_S8x1_S10000x1_1_0_0_1_n_n 8 rfl rfl).symm k) = ix2 p k := funext fun a => Fin.ext (by
    match a with
    | ⟨0, _⟩ => exact lhs2_0 _ _
    | ⟨1, _⟩ => exact (lhs2_1 _ _).trans hk)
  have er : dot_S10000x8_S8x1_S10000x1_1_0_0_1_n_n.rhsIdx (ix2 p q) ((ValueIdx.contrEquiv1 dot_S10000x8_S8x1_S10000x1_1_0_0_1_n_n 8 rfl rfl).symm k) = ix2 k q := funext fun a => Fin.ext (by
    match a with
    | ⟨0, _⟩ => exact (rhs2_0 _ _).trans hk
    | ⟨1, _⟩ => exact rhs2_1 _ _)
  rw [el, er]
  show (shapeCast S10000x8 x0 shapeCasts_S10000x8_S10000x8 (ix2 p k) * broadcastTo S10000x8 (shapeCast S10000x1 x1 shapeCasts_S10000x1_S10000x1) broadcasts_S10000x1_S10000x8 (ix2 p k)) * x2 (ix2 k q) = _
  rw [shapeCast_self, shapeCast_self, broadcastTo_apply x1 broadcasts_S10000x1_S10000x8 (ix2 p k) (ix2 p 0) (fun a => by
    match a with
    | ⟨0, _⟩ => show p.val = if (10000 : Nat) = 1 then 0 else p.val; rw [if_neg (by decide)]
    | ⟨1, _⟩ => show 0 = if (1 : Nat) = 1 then 0 else k.val; rw [if_pos rfl])]

end Cert.KernelIdeal.Val

end
-- ==== Proof.Reg2.lean ====
/-
  The second layer's dense product over the whole array. Point t of the 50 reads rows 10000·t … of the hidden
  features and of the factor column, the whole 8 × 1 weight column, and writes the same rows of the output; the 50
  blocks tile the output, so it ends as `scaleDot8` of the arrays the stage finds.
-/
import proofs.«113561_j2388001816782_2_alg».proof.Proof.Gen.KernelIdeal.Frame
import proofs.«113561_j2388001816782_2_alg».proof.Proof.Spec
import proofs.«113561_j2388001816782_2_alg».proof.Proof.Pay2
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices of the four windows at every grid point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first operand's block at point `t` is rows `10000 t …` of its array. -/
theorem iblk2_0_apply (c : Dev nD) (t : Fin cfg2.N) (y : S10000x8.Idx) (i : S500000x8.Idx)
    (h0 : (i 0).val = t.val * 10000 + (y 0).val) (h1 : (i 1).val = (y 1).val) :
    (iblk2 V c 0 t : Vec Ideal S10000x8 .f32) y = (V c main_v27 : S500000x8.Idx → EReal) i := by
  obtain ⟨e0, e1, -⟩ := idx_facts2 t
  unfold iblk2
  rw [View.read_apply]
  show V c main_v27 _ = V c main_v27 _
  congr 1
  funext a
  apply Fin.ext
  match a with
  | ⟨0, _⟩ => show win2_0.index t 0 * 10000 + 1 * (y 0).val = (i 0).val; rw [e0, h0]; omega
  | ⟨1, _⟩ => show win2_0.index t 1 * 8 + 1 * (y 1).val = (i 1).val; rw [e1, h1]; omega

/-- The factor block at point `t` is rows `10000 t …` of the factor column. -/
theorem iblk2_1_apply (c : Dev nD) (t : Fin cfg2.N) (y : S10000x1.Idx) (i : S500000x1.Idx)
    (h0 : (i 0).val = t.val * 10000 + (y 0).val) (h1 : (i 1).val = (y 1).val) :
    (iblk2 V c 1 t : Vec Ideal S10000x1 .f32) y = (V c main_v10 : S500000x1.Idx → EReal) i := by
  obtain ⟨-, -, e0, e1, -⟩ := idx_facts2 t
  unfold iblk2
  rw [View.read_apply]
  show V c main_v10 _ = V c main_v10 _
  congr 1
  funext a
  apply Fin.ext
  match a with
  | ⟨0, _⟩ => show win2_1.index t 0 * 10000 + 1 * (y 0).val = (i 0).val; rw [e0, h0]; omega
  | ⟨1, _⟩ => show win2_1.index t 1 * 1 + 1 * (y 1).val = (i 1).val; rw [e1, h1]; omega

/-- The small operand's block at every point is the whole of it. -/
theorem iblk2_2_apply (c : Dev nD) (t : Fin cfg2.N) (y : S8x1.Idx) :
    (iblk2 V c 2 t : Vec Ideal S8x1 .f32) y = (V c main_arg3 : S8x1.Idx → EReal) y := by
  obtain ⟨-, -, -, -, e0, e1, -⟩ := idx_facts2 t
  unfold iblk2
  rw [View.read_apply]
  show V c main_arg3 _ = V c main_arg3 _
  congr 1
  funext a
  apply Fin.ext
  match a with
  | ⟨0, _⟩ => show win2_2.index t 0 * 8 + 1 * (y 0).val = (y 0).val; rw [e0]; omega
  | ⟨1, _⟩ => show win2_2.index t 1 * 1 + 1 * (y 1).val = (y 1).val; rw [e1]; omega

/-- A block of the stage: if the loaded blocks are rows `10000 T …` of `A` and `N` and the whole of `C`, the block
    computation at `j` is `scaleDot8 A N C` at row `10000 T + j 0`, column `j 1`. -/
theorem block2 (A : FVec Ideal S500000x8 .f32) (N : FVec Ideal S500000x1 .f32) (C : FVec Ideal S8x1 .f32)
    (x0 : FVec Ideal S10000x8 .f32) (x1 : FVec Ideal S10000x1 .f32) (x2 : FVec Ideal S8x1 .f32) (T : Nat)
    (h0 : ∀ (y : S10000x8.Idx) (i : S500000x8.Idx), (i 0).val = T * 10000 + (y 0).val → (i 1).val = (y 1).val → x0 y = A i)
    (h1 : ∀ (y : S10000x1.Idx) (i : S500000x1.Idx), (i 0).val = T * 10000 + (y 0).val → (i 1).val = (y 1).val → x1 y = N i)
    (h2 : ∀ y : S8x1.Idx, x2 y = C y)
    (j : S10000x1.Idx) (i : S500000x1.Idx) (hi0 : (i 0).val = T * 10000 + (j 0).val) (hi1 : (i 1).val = (j 1).val) :
    k2_pay1 (F := Ideal) x0 x1 x2 j = scaleDot8 A N C i := by
  obtain ⟨p, q, rfl⟩ : ∃ (p : Fin 10000) (q : Fin 1), j = ix2 p q := ⟨j 0, j 1, eq_ix2 j⟩
  obtain ⟨r, q', rfl⟩ : ∃ (r : Fin 500000) (q' : Fin 1), i = ix2 r q' := ⟨i 0, i 1, eq_ix2 i⟩
  obtain rfl : q' = q := Fin.ext hi1
  rw [pay2_apply]
  unfold scaleDot8
  refine Finset.sum_congr rfl fun k _ => ?_
  show (x0 (ix2 p k) * x1 (ix2 p 0)) * x2 (ix2 k q') = (A (ix2 r k) * N (ix2 r 0)) * C (ix2 k q')
  rw [h0 (ix2 p k) (ix2 r k) hi0 rfl, h1 (ix2 p 0) (ix2 r 0) hi0 rfl, h2]

/-- WHAT POINT `t` WRITES BACK is block `t` of `scaleDot8` of the arrays as the stage finds them. -/
theorem flushed2_eq (c : Dev nD) (t : Fin cfg2.N) :
    (dat2 V c).flushed 3 t
      = ((cfg2.win 3).blk t).view.read (Elt Ideal) (scaleDot8 (V c main_v27) (V c main_v10) (V c main_arg3)) := by
  show (cfg2.win 3).cut (grid2.coords t) ((dat2 V c).after 3 t) = _
  rw [after2_3]
  unfold out2_3
  rw [View.canon_unit_zero hz]
  simp only [View.ld_unit_zero (S := S10000x8) hz, View.ld_unit_zero (S := S10000x1) hz, View.ld_unit_zero (S := S8x1) hz]
  obtain ⟨-, -, -, -, -, -, e6, e7⟩ := idx_facts2 t
  funext j
  rw [View.read_apply]
  refine block2 _ _ _ _ _ _ t.val (fun y i h0 h1 => iblk2_0_apply V c t y i h0 h1) (fun y i h0 h1 => iblk2_1_apply V c t y i h0 h1)
    (fun y => iblk2_2_apply V c t y) j _ ?_ ?_
  · show win2_3.index t 0 * 10000 + 1 * (j 0).val = t.val * 10000 + (j 0).val; rw [e6]; omega
  · show win2_3.index t 1 * 1 + 1 * (j 1).val = (j 1).val; rw [e7]; omega

/-- An index of the output is in point `t`'s block iff each coordinate is in the block's range on its axis. -/
theorem mem_blk2 (t : Fin cfg2.N) (i : S500000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v28).slice (win2_3.rect t)).set ↔ _
  rw [View.set_slice_whole, Rect.mem_set_unit]
  exact Iff.rfl

/-- Row `r` of the output is in the block of point `r / 10000`. -/
theorem cover2 (i : S500000x1.Idx) : ∃ t : Fin cfg2.N, (cfg2.win 3).flush t = true ∧ i ∈ ((cfg2.win 3).blk t).view.set := by
  have hi0 : (i 0).val < 500000 := (i 0).isLt
  have hi1 : (i 1).val < 1 := (i 1).isLt
  have hN : cfg2.N = 50 := N_2
  have ht : (i 0).val / 10000 < cfg2.N := by rw [hN]; omega
  obtain ⟨-, -, -, -, -, -, e6, e7⟩ := idx_facts2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ 0 * 10000 ≤ (i 0).val ∧ (i 0).val < win2_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ 1 * 1 ≤ (i 1).val ∧ (i 1).val < win2_3.index ⟨(i 0).val / 10000, ht⟩ 1 * 1 + 1
    rw [e7]; omega

/-- THE STAGE'S OUTPUT ARRAY: `scaleDot8` of the arrays the stage finds. -/
theorem region2 (c : Dev nD) :
    (dat2 V c).arrAt 3 cfg2.N = scaleDot8 (V c main_v27) (V c main_v10) (V c main_arg3) :=
  (dat2 V c).arrAt_eq_of_cover 3 _ (fun t _ => flushed2_eq V c t) cover2

end Cert.KernelIdeal.Val

end
-- ==== Proof.Pay3.lean ====
/-
  The last stage's block computation read at an index: the aggregated entry times the row's factor plus the one bias.
-/
import proofs.«113561_j2388001816782_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- Entry `(p, q)`: `x0 p q · x1 p q + x2 0 0`. -/
theorem pay3_apply (x0 : FVec Ideal S10000x1 .f32) (x1 : FVec Ideal S10000x1 .f32) (x2 : FVec Ideal S1x1 .f32)
    (p : Fin 10000) (q : Fin 1) :
    k3_pay1 (F := Ideal) x0 x1 x2 (ix2 p q) = x0 (ix2 p q) * x1 (ix2 p q) + x2 (ix2 0 0) := by
  unfold k3_pay1
  show shapeCast S10000x1 x0 shapeCasts_S10000x1_S10000x1 (ix2 p q) * shapeCast S10000x1 x1 shapeCasts_S10000x1_S10000x1 (ix2 p q)
      + broadcastTo S10000x1 (shapeCast S1x1 x2 shapeCasts_S1x1_S1x1) broadcasts_S1x1_S10000x1 (ix2 p q) = _
  rw [shapeCast_self, shapeCast_self, shapeCast_self,
    broadcastTo_apply x2 broadcasts_S1x1_S10000x1 (ix2 p q) (ix2 0 0) (fun a => by
      match a with
      | ⟨0, _⟩ => show 0 = if (1 : Nat) = 1 then 0 else p.val; rw [if_pos rfl]
      | ⟨1, _⟩ => show 0 = if (1 : Nat) = 1 then 0 else q.val; rw [if_pos rfl])]

end Cert.KernelIdeal.Val

end
-- ==== Proof.Reg3.lean ====
/-
  The last stage over the whole array. Point t of the 50 reads rows 10000·t … of the aggregated column and of the
  factor column, the one bias, and writes the same rows of the result; the 50 blocks tile the result, so it ends as
  `scaleBias` of the arrays the stage finds.
-/
import proofs.«113561_j2388001816782_2_alg».proof.Proof.Gen.KernelIdeal.Frame
import proofs.«113561_j2388001816782_2_alg».proof.Proof.Spec
import proofs.«113561_j2388001816782_2_alg».proof.Proof.Pay3
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices of the four windows at every grid point. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first operand's block at point `t` is rows `10000 t …` of its array. -/
theorem iblk3_0_apply (c : Dev nD) (t : Fin cfg3.N) (y : S10000x1.Idx) (i : S500000x1.Idx)
    (h0 : (i 0).val = t.val * 10000 + (y 0).val) (h1 : (i 1).val = (y 1).val) :
    (iblk3 V c 0 t : Vec Ideal S10000x1 .f32) y = (V c main_v38 : S500000x1.Idx → EReal) i := by
  obtain ⟨e0, e1, -⟩ := idx_facts3 t
  unfold iblk3
  rw [View.read_apply]
  show V c main_v38 _ = V c main_v38 _
  congr 1
  funext a
  apply Fin.ext
  match a with
  | ⟨0, _⟩ => show win3_0.index t 0 * 10000 + 1 * (y 0).val = (i 0).val; rw [e0, h0]; omega
  | ⟨1, _⟩ => show win3_0.index t 1 * 1 + 1 * (y 1).val = (i 1).val; rw [e1, h1]; omega

/-- The factor block at point `t` is rows `10000 t …` of the factor column. -/
theorem iblk3_1_apply (c : Dev nD) (t : Fin cfg3.N) (y : S10000x1.Idx) (i : S500000x1.Idx)
    (h0 : (i 0).val = t.val * 10000 + (y 0).val) (h1 : (i 1).val = (y 1).val) :
    (iblk3 V c 1 t : Vec Ideal S10000x1 .f32) y = (V c main_v14 : S500000x1.Idx → EReal) i := by
  obtain ⟨-, -, e0, e1, -⟩ := idx_facts3 t
  unfold iblk3
  rw [View.read_apply]
  show V c main_v14 _ = V c main_v14 _
  congr 1
  funext a
  apply Fin.ext
  match a with
  | ⟨0, _⟩ => show win3_1.index t 0 * 10000 + 1 * (y 0).val = (i 0).val; rw [e0, h0]; omega
  | ⟨1, _⟩ => show win3_1.index t 1 * 1 + 1 * (y 1).val = (i 1).val; rw [e1, h1]; omega

/-- The small operand's block at every point is the whole of it. -/
theorem iblk3_2_apply (c : Dev nD) (t : Fin cfg3.N) (y : S1x1.Idx) :
    (iblk3 V c 2 t : Vec Ideal S1x1 .f32) y = (V c main_v39 : S1x1.Idx → EReal) y := by
  obtain ⟨-, -, -, -, e0, e1, -⟩ := idx_facts3 t
  unfold iblk3
  rw [View.read_apply]
  show V c main_v39 _ = V c main_v39 _
  congr 1
  funext a
  apply Fin.ext
  match a with
  | ⟨0, _⟩ => show win3_2.index t 0 * 1 + 1 * (y 0).val = (y 0).val; rw [e0]; omega
  | ⟨1, _⟩ => show win3_2.index t 1 * 1 + 1 * (y 1).val = (y 1).val; rw [e1]; omega

/-- A block of the stage: if the loaded blocks are rows `10000 T …` of `A` and `N` and the whole of `C`, the block
    computation at `j` is `scaleBias A N C` at row `10000 T + j 0`, column `j 1`. -/
theorem block3 (A : FVec Ideal S500000x1 .f32) (N : FVec Ideal S500000x1 .f32) (C : FVec Ideal S1x1 .f32)
    (x0 : FVec Ideal S10000x1 .f32) (x1 : FVec Ideal S10000x1 .f32) (x2 : FVec Ideal S1x1 .f32) (T : Nat)
    (h0 : ∀ (y : S10000x1.Idx) (i : S500000x1.Idx), (i 0).val = T * 10000 + (y 0).val → (i 1).val = (y 1).val → x0 y = A i)
    (h1 : ∀ (y : S10000x1.Idx) (i : S500000x1.Idx), (i 0).val = T * 10000 + (y 0).val → (i 1).val = (y 1).val → x1 y = N i)
    (h2 : ∀ y : S1x1.Idx, x2 y = C y)
    (j : S10000x1.Idx) (i : S500000x1.Idx) (hi0 : (i 0).val = T * 10000 + (j 0).val) (hi1 : (i 1).val = (j 1).val) :
    k3_pay1 (F := Ideal) x0 x1 x2 j = scaleBias A N C i := by
  obtain ⟨p, q, rfl⟩ : ∃ (p : Fin 10000) (q : Fin 1), j = ix2 p q := ⟨j 0, j 1, eq_ix2 j⟩
  obtain ⟨r, q', rfl⟩ : ∃ (r : Fin 500000) (q' : Fin 1), i = ix2 r q' := ⟨i 0, i 1, eq_ix2 i⟩
  obtain rfl : q' = q := Fin.ext hi1
  rw [pay3_apply]
  unfold scaleBias
  show x0 (ix2 p q') * x1 (ix2 p q') + x2 (ix2 0 0) = A (ix2 r q') * N (ix2 r q') + C (ix2 0 0)
  rw [h0 (ix2 p q') (ix2 r q') hi0 rfl, h1 (ix2 p q') (ix2 r q') hi0 rfl, h2]

/-- WHAT POINT `t` WRITES BACK is block `t` of `scaleBias` of the arrays as the stage finds them. -/
theorem flushed3_eq (c : Dev nD) (t : Fin cfg3.N) :
    (dat3 V c).flushed 3 t
      = ((cfg3.win 3).blk t).view.read (Elt Ideal) (scaleBias (V c main_v38) (V c main_v14) (V c main_v39)) := by
  show (cfg3.win 3).cut (grid3.coords t) ((dat3 V c).after 3 t) = _
  rw [after3_3]
  unfold out3_3
  rw [View.canon_unit_zero hz]
  simp only [View.ld_unit_zero (S := S10000x1) hz, View.ld_unit_zero (S := S10000x1) hz, View.ld_unit_zero (S := S1x1) hz]
  obtain ⟨-, -, -, -, -, -, e6, e7⟩ := idx_facts3 t
  funext j
  rw [View.read_apply]
  refine block3 _ _ _ _ _ _ t.val (fun y i h0 h1 => iblk3_0_apply V c t y i h0 h1) (fun y i h0 h1 => iblk3_1_apply V c t y i h0 h1)
    (fun y => iblk3_2_apply V c t y) j _ ?_ ?_
  · show win3_3.index t 0 * 10000 + 1 * (j 0).val = t.val * 10000 + (j 0).val; rw [e6]; omega
  · show win3_3.index t 1 * 1 + 1 * (j 1).val = (j 1).val; rw [e7]; omega

/-- An index of the output is in point `t`'s block iff each coordinate is in the block's range on its axis. -/
theorem mem_blk3 (t : Fin cfg3.N) (i : S500000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v40).slice (win3_3.rect t)).set ↔ _
  rw [View.set_slice_whole, Rect.mem_set_unit]
  exact Iff.rfl

/-- Row `r` of the output is in the block of point `r / 10000`. -/
theorem cover3 (i : S500000x1.Idx) : ∃ t : Fin cfg3.N, (cfg3.win 3).flush t = true ∧ i ∈ ((cfg3.win 3).blk t).view.set := by
  have hi0 : (i 0).val < 500000 := (i 0).isLt
  have hi1 : (i 1).val < 1 := (i 1).isLt
  have hN : cfg3.N = 50 := N_3
  have ht : (i 0).val / 10000 < cfg3.N := by rw [hN]; omega
  obtain ⟨-, -, -, -, -, -, e6, e7⟩ := idx_facts3 ⟨(i 0).val / 10000, ht⟩
  refine ⟨⟨(i 0).val / 10000, ht⟩, flush3_3 _, ?_⟩
  rw [mem_blk3]
  intro a
  match a with
  | ⟨0, _⟩ =>
    show win3_3.index ⟨(i 0).val / 10000, ht⟩ 0 * 10000 ≤ (i 0).val ∧ (i 0).val < win3_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ 1 * 1 ≤ (i 1).val ∧ (i 1).val < win3_3.index ⟨(i 0).val / 10000, ht⟩ 1 * 1 + 1
    rw [e7]; omega

/-- THE STAGE'S OUTPUT ARRAY: `scaleBias` of the arrays the stage finds. -/
theorem region3 (c : Dev nD) :
    (dat3 V c).arrAt 3 cfg3.N = scaleBias (V c main_v38) (V c main_v14) (V c main_v39) :=
  (dat3 V c).arrAt_eq_of_cover 3 _ (fun t _ => flushed3_eq V c t) cover3

end Cert.KernelIdeal.Val

end
-- ==== Proof.KValue.lean ====
/-
  The kernel program's result array as one function of its arguments. The segments are folded in order: the host
  operations before the first dense stage leave the two per-node factor columns; each dense stage leaves its output
  array at the stage's whole-array function of the arrays it finds; the host operations between the stages gather the
  stage's output along the edges' sources and add it into their destinations, and reshape a bias; nothing writes an
  argument or, once made, a factor column. Traced back to the launch memory, the result array is `result` of the seven
  arguments.
-/
import proofs.«113561_j2388001816782_2_alg».proof.Proof.Gen.KernelIdeal.Frame
import proofs.«113561_j2388001816782_2_alg».proof.Proof.Spec
import proofs.«113561_j2388001816782_2_alg».proof.Proof.Reg0
import proofs.«113561_j2388001816782_2_alg».proof.Proof.Reg1
import proofs.«113561_j2388001816782_2_alg».proof.Proof.Reg2
import proofs.«113561_j2388001816782_2_alg».proof.Proof.Reg3
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first stage: the arguments as launched, the two factor columns made -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
  all_goals rfl
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results
  all_goals rfl
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
  all_goals rfl
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
  all_goals rfl
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
  all_goals rfl
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
  all_goals rfl
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
  all_goals rfl

/-- The factor column of the sources' degrees. -/
theorem W1_v10 (c : Dev nD) : W1 m ρ c (Proc.devRef .tc main_v10) = normCol (m ((c : Thread nD τ).loc main_arg5)) := by
  show StableHlo.after hostOps0 (W0 m ρ c) (Proc.devRef .tc main_v10) = _
  dsimp only [hostOps0]
  after_results
  all_goals rfl

/-- The factor column of the destinations' degrees. -/
theorem W1_v14 (c : Dev nD) : W1 m ρ c (Proc.devRef .tc main_v14) = normCol (m ((c : Thread nD τ).loc main_arg6)) := by
  show StableHlo.after hostOps0 (W0 m ρ c) (Proc.devRef .tc main_v14) = _
  dsimp only [hostOps0]
  after_results
  all_goals rfl

/-! ## The first dense stage -/

theorem W2_arg2 (c : Dev nD) : W2 m ρ c (Proc.devRef .tc main_arg2) = W1 m ρ c (Proc.devRef .tc main_arg2) :=
  W2_of_ne m ρ c main_arg2 (by decide)
theorem W2_arg3 (c : Dev nD) : W2 m ρ c (Proc.devRef .tc main_arg3) = W1 m ρ c (Proc.devRef .tc main_arg3) :=
  W2_of_ne m ρ c main_arg3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
/-- The source factor column is the first stage's second input: the stage reads it and leaves it. -/
theorem W2_v10 (c : Dev nD) : W2 m ρ c (Proc.devRef .tc main_v10) = W1 m ρ c (Proc.devRef .tc main_v10) :=
  (W2_arr m ρ c 1).trans (((dat0 (V1 m ρ) c).arrAt_in 1 rfl _).trans (A_eq0 (V1 m ρ) c 1))
theorem W2_v14 (c : Dev nD) : W2 m ρ c (Proc.devRef .tc main_v14) = W1 m ρ c (Proc.devRef .tc main_v14) :=
  W2_of_ne m ρ c main_v14 (by decide)

/-- After the first dense stage its output array holds the scaled rows multiplied into the first weight matrix. -/
theorem W2_v15 (c : Dev nD) : W2 m ρ c (Proc.devRef .tc main_v15)
    = scaleDot128 (m ((c : Thread nD τ).loc main_arg0)) (normCol (m ((c : Thread nD τ).loc main_arg5))) (m ((c : Thread nD τ).loc main_arg1)) := by
  refine (W2_arr m ρ c 3).trans ((region0 (V1 m ρ) c).trans ?_)
  show scaleDot128 (W1 m ρ c (Proc.devRef .tc main_arg0)) (W1 m ρ c (Proc.devRef .tc main_v10)) (W1 m ρ c (Proc.devRef .tc main_arg1)) = _
  rw [W1_arg0, W1_v10, W1_arg1]

/-! ## Between the first and second stages: the aggregation along the edges, the bias as a row -/

theorem W3_arg3 (c : Dev nD) : W3 m ρ c (Proc.devRef .tc main_arg3) = W2 m ρ c (Proc.devRef .tc main_arg3) := by
  show StableHlo.after hostOps1 (W2 m ρ c) (Proc.devRef .tc main_arg3) = _
  dsimp only [hostOps1]
  after_results
theorem W3_arg4 (c : Dev nD) : W3 m ρ c (Proc.devRef .tc main_arg4) = W2 m ρ c (Proc.devRef .tc main_arg4) := by
  show StableHlo.after hostOps1 (W2 m ρ c) (Proc.devRef .tc main_arg4) = _
  dsimp only [hostOps1]
  after_results
theorem W3_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]
  after_results
theorem W3_arg6 (c : Dev nD) : W3 m ρ c (Proc.devRef .tc main_arg6) = W2 m ρ c (Proc.devRef .tc main_arg6) := by
  show StableHlo.after hostOps1 (W2 m ρ c) (Proc.devRef .tc main_arg6) = _
  dsimp only [hostOps1]
  after_results
theorem W3_v10 (c : Dev nD) : W3 m ρ c (Proc.devRef .tc main_v10) = W2 m ρ c (Proc.devRef .tc main_v10) := by
  show StableHlo.after hostOps1 (W2 m ρ c) (Proc.devRef .tc main_v10) = _
  dsimp only [hostOps1]
  after_results
theorem W3_v14 (c : Dev nD) : W3 m ρ c (Proc.devRef .tc main_v14) = W2 m ρ c (Proc.devRef .tc main_v14) := by
  show StableHlo.after hostOps1 (W2 m ρ c) (Proc.devRef .tc main_v14) = _
  dsimp only [hostOps1]
  after_results

theorem W3_v25 (c : Dev nD) : W3 m ρ c (Proc.devRef .tc main_v25)
    = aggregate8 (W2 m ρ c (Proc.devRef .tc main_v15)) (W2 m ρ c (Proc.devRef .tc main_arg5)) (W2 m ρ c (Proc.devRef .tc main_arg6)) := by
  show StableHlo.after hostOps1 (W2 m ρ c) (Proc.devRef .tc main_v25) = _
  dsimp only [hostOps1]
  after_results
  all_goals rfl

theorem W3_v26 (c : Dev nD) : W3 m ρ c (Proc.devRef .tc main_v26)
    = shapeCast S1x8 (W2 m ρ c (Proc.devRef .tc main_arg2)) Facts₀.shapeCasts_S8_S1x8 := by
  show StableHlo.after hostOps1 (W2 m ρ c) (Proc.devRef .tc main_v26) = _
  dsimp only [hostOps1]
  after_results
  all_goals rfl

/-! ## The second stage (scale, bias, relu) and the third (the second layer's product) -/

theorem W4_arg3 (c : Dev nD) : W4 m ρ c (Proc.devRef .tc main_arg3) = W3 m ρ c (Proc.devRef .tc main_arg3) :=
  W4_of_ne m ρ c main_arg3 (by decide)
theorem W4_arg4 (c : Dev nD) : W4 m ρ c (Proc.devRef .tc main_arg4) = W3 m ρ c (Proc.devRef .tc main_arg4) :=
  W4_of_ne m ρ c main_arg4 (by decide)
theorem W4_arg5 (c : Dev nD) : W4 m ρ c (Proc.devRef .tc main_arg5) = W3 m ρ c (Proc.devRef .tc main_arg5) :=
  W4_of_ne m ρ c main_arg5 (by decide)
theorem W4_arg6 (c : Dev nD) : W4 m ρ c (Proc.devRef .tc main_arg6) = W3 m ρ c (Proc.devRef .tc main_arg6) :=
  W4_of_ne m ρ c main_arg6 (by decide)
theorem W4_v10 (c : Dev nD) : W4 m ρ c (Proc.devRef .tc main_v10) = W3 m ρ c (Proc.devRef .tc main_v10) :=
  W4_of_ne m ρ c main_v10 (by decide)
/-- The destination factor column is the second stage's second input: the stage reads it and leaves it. -/
theorem W4_v14 (c : Dev nD) : W4 m ρ c (Proc.devRef .tc main_v14) = W3 m ρ c (Proc.devRef .tc main_v14) :=
  (W4_arr m ρ c 1).trans (((dat1 (V3 m ρ) c).arrAt_in 1 rfl _).trans (A_eq1 (V3 m ρ) c 1))

/-- After the second stage its output holds the first layer's hidden features. -/
theorem W4_v27 (c : Dev nD) : W4 m ρ c (Proc.devRef .tc main_v27)
    = hidden (m ((c : Thread nD τ).loc main_arg0)) (m ((c : Thread nD τ).loc main_arg1)) (m ((c : Thread nD τ).loc main_arg2)) (m ((c : Thread nD τ).loc main_arg5)) (m ((c : Thread nD τ).loc main_arg6)) := by
  refine (W4_arr m ρ c 3).trans ((region1 (V3 m ρ) c).trans ?_)
  show scaleBiasRelu (W3 m ρ c (Proc.devRef .tc main_v25)) (W3 m ρ c (Proc.devRef .tc main_v14)) (W3 m ρ c (Proc.devRef .tc main_v26)) = _
  rw [W3_v25, W3_v14, W3_v26, W2_v15, W2_arg5, W2_arg6, W2_v14, W2_arg2, W1_arg5, W1_arg6, W1_v14, W1_arg2]
  rfl

theorem W5_arg4 (c : Dev nD) : W5 m ρ c (Proc.devRef .tc main_arg4) = W4 m ρ c (Proc.devRef .tc main_arg4) :=
  W5_of_ne m ρ c main_arg4 (by decide)
theorem W5_arg5 (c : Dev nD) : W5 m ρ c (Proc.devRef .tc main_arg5) = W4 m ρ c (Proc.devRef .tc main_arg5) :=
  W5_of_ne m ρ c main_arg5 (by decide)
theorem W5_arg6 (c : Dev nD) : W5 m ρ c (Proc.devRef .tc main_arg6) = W4 m ρ c (Proc.devRef .tc main_arg6) :=
  W5_of_ne m ρ c main_arg6 (by decide)
theorem W5_v14 (c : Dev nD) : W5 m ρ c (Proc.devRef .tc main_v14) = W4 m ρ c (Proc.devRef .tc main_v14) :=
  W5_of_ne m ρ c main_v14 (by decide)

/-- After the third stage its output holds the hidden features, scaled, multiplied into the second weight column. -/
theorem W5_v28 (c : Dev nD) : W5 m ρ c (Proc.devRef .tc main_v28)
    = scaleDot8 (hidden (m ((c : Thread nD τ).loc main_arg0)) (m ((c : Thread nD τ).loc main_arg1)) (m ((c : Thread nD τ).loc main_arg2)) (m ((c : Thread nD τ).loc main_arg5)) (m ((c : Thread nD τ).loc main_arg6)))
        (normCol (m ((c : Thread nD τ).loc main_arg5))) (m ((c : Thread nD τ).loc main_arg3)) := by
  refine (W5_arr m ρ c 3).trans ((region2 (V4 m ρ) c).trans ?_)
  show scaleDot8 (W4 m ρ c (Proc.devRef .tc main_v27)) (W4 m ρ c (Proc.devRef .tc main_v10)) (W4 m ρ c (Proc.devRef .tc main_arg3)) = _
  rw [W4_v27, W4_v10, W4_arg3, W3_v10, W3_arg3, W2_v10, W2_arg3, W1_v10, W1_arg3]

/-! ## Between the third and last stages: the second aggregation, the second bias as a 1 × 1 array -/

theorem W6_v14 (c : Dev nD) : W6 m ρ c (Proc.devRef .tc main_v14) = W5 m ρ c (Proc.devRef .tc main_v14) := by
  show StableHlo.after hostOps3 (W5 m ρ c) (Proc.devRef .tc main_v14) = _
  dsimp only [hostOps3]
  after_results

theorem W6_v38 (c : Dev nD) : W6 m ρ c (Proc.devRef .tc main_v38)
    = aggregate1 (W5 m ρ c (Proc.devRef .tc main_v28)) (W5 m ρ c (Proc.devRef .tc main_arg5)) (W5 m ρ c (Proc.devRef .tc main_arg6)) := by
  show StableHlo.after hostOps3 (W5 m ρ c) (Proc.devRef .tc main_v38) = _
  dsimp only [hostOps3]
  after_results
  all_goals rfl

theorem W6_v39 (c : Dev nD) : W6 m ρ c (Proc.devRef .tc main_v39)
    = shapeCast S1x1 (W5 m ρ c (Proc.devRef .tc main_arg4)) Facts₀.shapeCasts_S1_S1x1 := by
  show StableHlo.after hostOps3 (W5 m ρ c) (Proc.devRef .tc main_v39) = _
  dsimp only [hostOps3]
  after_results
  all_goals rfl

/-! ## The last stage: the result -/

/-- THE RESULT ARRAY after the run is `result` of the seven argument arrays as launched. -/
theorem W7_result (c : Dev nD) : W7 m ρ c (Proc.devRef .tc main_v40)
    = result (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) := by
  refine (W7_arr m ρ c 3).trans ((region3 (V6 m ρ) c).trans ?_)
  show scaleBias (W6 m ρ c (Proc.devRef .tc main_v38)) (W6 m ρ c (Proc.devRef .tc main_v14)) (W6 m ρ c (Proc.devRef .tc main_v39)) = _
  rw [W6_v38, W6_v14, W6_v39, W5_v28, W5_arg5, W5_arg6, W5_v14, W5_arg4, W4_arg5, W4_arg6, W4_v14, W4_arg4,
    W3_arg5, W3_arg6, W3_v14, W3_arg4, W2_arg5, W2_arg6, W2_v14, W2_arg4, W1_arg5, W1_arg6, W1_v14, W1_arg4]
  rfl

end Cert.KernelIdeal.Val

end
-- ==== Proof.RefBridge.lean ====
/-
  The reference computes the same function. Read one operation at a time, the reference's program is: the two degree
  factors (the same scatter-add of ones, maximum with one, reciprocal square root), broadcast to a column and then along
  the feature axis; the product with the features and the `dot_general` with the first weights, which entry by entry is
  `scaleDot128`; the gather along the sources and scatter-add along the destinations, which are the kernel program's own
  operations on equal operands; the product with the destination factor, the bias broadcast from a row, and the maximum
  with zero, entry by entry `scaleBiasRelu`; and the same three steps at the second layer's widths. A reshape of a
  vector to a column (the kernel's) and a broadcast of it to a column (the reference's) place the same entries.
-/
import proofs.«113561_j2388001816782_2_alg».proof.Proof.Gen.ReferenceIdeal.Read
import proofs.«113561_j2388001816782_2_alg».proof.Proof.Spec
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Read Idealize.ShloMosaic Idealize.ShloMosaic.ValueIdx
open Cert.KernelIdeal.Val (scaleDot128 scaleDot8 scaleBiasRelu scaleBias degNorm wrapIdx aggregate8 aggregate1 normCol hidden result)

/-! ## The sparse stages: the same operations on both sides -/

/-- The degree factor is the same term in both programs. -/
theorem degNorm_src (x5 : (⟨S16000000, .i32⟩ : BufTy).Contents (Elt Ideal)) : val_main_v6 (F := Ideal) x5 = degNorm x5 := rfl
theorem degNorm_dst (x6 : (⟨S16000000, .i32⟩ : BufTy).Contents (Elt Ideal)) : val_main_v13 (F := Ideal) x6 = degNorm x6 := rfl

/-- A vector reshaped to a column and the vector broadcast to a column hold the same entries. -/
theorem col_src (x5 : (⟨S16000000, .i32⟩ : BufTy).Contents (Elt Ideal)) : val_main_v14 (F := Ideal) x5 = normCol x5 := by
  funext i
  rw [val_main_v14_apply, degNorm_src]
  unfold Cert.KernelIdeal.Val.normCol
  refine (shapeCast_apply (degNorm x5) _ i (idx_main_v14 i) ?_).symm
  rw [Shape.rowMajor_val_one, Shape.rowMajor_val_two]
  show (i 0).val = (i 0).val * 1 + (i 1).val
  have h1 : (i 1).val < 1 := (i 1).isLt
  omega

theorem col_dst (x6 : (⟨S16000000, .i32⟩ : BufTy).Contents (Elt Ideal)) : val_main_v28 (F := Ideal) x6 = normCol x6 := by
  funext i
  rw [val_main_v28_apply, degNorm_dst]
  unfold Cert.KernelIdeal.Val.normCol
  refine (shapeCast_apply (degNorm x6) _ i (idx_main_v28 i) ?_).symm
  rw [Shape.rowMajor_val_one, Shape.rowMajor_val_two]
  show (i 0).val = (i 0).val * 1 + (i 1).val
  have h1 : (i 1).val < 1 := (i 1).isLt
  omega

theorem col_src' (x5 : (⟨S16000000, .i32⟩ : BufTy).Contents (Elt Ideal)) : val_main_v35 (F := Ideal) x5 = val_main_v14 (F := Ideal) x5 := rfl
theorem col_dst' (x6 : (⟨S16000000, .i32⟩ : BufTy).Contents (Elt Ideal)) : val_main_v49 (F := Ideal) x6 = val_main_v28 (F := Ideal) x6 := rfl

/-- The first aggregation is the kernel program's, applied to the reference's first product. -/
theorem agg8 (x0 : (⟨S500000x128, .f32⟩ : BufTy).Contents (Elt Ideal)) (x1 : (⟨S128x8, .f32⟩ : BufTy).Contents (Elt Ideal)) (x5 x6 : (⟨S16000000, .i32⟩ : BufTy).Contents (Elt Ideal)) :
    val_main_v27 (F := Ideal) x0 x1 x5 x6 = aggregate8 (val_main_v17 (F := Ideal) x0 x1 x5) x5 x6 := rfl

/-- The second aggregation likewise. -/
theorem agg1 (x0 : (⟨S500000x128, .f32⟩ : BufTy).Contents (Elt Ideal)) (x1 : (⟨S128x8, .f32⟩ : BufTy).Contents (Elt Ideal)) (x2 : (⟨S8, .f32⟩ : BufTy).Contents (Elt Ideal)) (x3 : (⟨S8x1, .f32⟩ : BufTy).Contents (Elt Ideal)) (x5 x6 : (⟨S16000000, .i32⟩ : BufTy).Contents (Elt Ideal)) :
    val_main_v48 (F := Ideal) x0 x1 x2 x3 x5 x6 = aggregate1 (val_main_v38 (F := Ideal) x0 x1 x2 x3 x5 x6) x5 x6 := rfl

/-! ## The dense stages, read at an index -/

/-- The first product: the features times the broadcast factor, then `dot_general` with the weights. -/
theorem dot128 (x0 : (⟨S500000x128, .f32⟩ : BufTy).Contents (Elt Ideal)) (x1 : (⟨S128x8, .f32⟩ : BufTy).Contents (Elt Ideal)) (x5 : (⟨S16000000, .i32⟩ : BufTy).Contents (Elt Ideal)) :
    val_main_v17 (F := Ideal) x0 x1 x5 = scaleDot128 x0 (val_main_v14 (F := Ideal) x5) x1 := by
  funext i
  rw [val_main_v17_apply]
  unfold Cert.KernelIdeal.Val.scaleDot128
  refine Finset.sum_congr rfl fun k _ => ?_
  rw [val_main_v16_apply, val_main_v15_apply]
  have e1 : lidx_main_v17 i k = ix2 (i 0) k := funext fun a => Fin.ext (by
    match a with
    | ⟨0, _⟩ => rfl
    | ⟨1, _⟩ => rfl)
  have e2 : ridx_main_v17 i k = ix2 k (i 1) := funext fun a => Fin.ext (by
    match a with
    | ⟨0, _⟩ => rfl
    | ⟨1, _⟩ => rfl)
  have e3 : idx_main_v15 (ix2 (i 0) k) = ix2 (i 0) 0 := funext fun a => Fin.ext (by
    match a with
    | ⟨0, _⟩ => rfl
    | ⟨1, _⟩ => rfl)
  rw [e1, e2, e3]
  rfl

/-- The first layer's scale, bias and relu. -/
theorem act8 (x0 : (⟨S500000x128, .f32⟩ : BufTy).Contents (Elt Ideal)) (x1 : (⟨S128x8, .f32⟩ : BufTy).Contents (Elt Ideal)) (x2 : (⟨S8, .f32⟩ : BufTy).Contents (Elt Ideal)) (x5 x6 : (⟨S16000000, .i32⟩ : BufTy).Contents (Elt Ideal)) :
    val_main_v34 (F := Ideal) x0 x1 x2 x5 x6
      = scaleBiasRelu (val_main_v27 (F := Ideal) x0 x1 x5 x6) (val_main_v28 (F := Ideal) x6)
          (shapeCast Cert.KernelIdeal.S1x8 x2 Cert.KernelIdeal.Facts₀.shapeCasts_S8_S1x8) := by
  funext i
  rw [val_main_v34_apply, val_main_v33_apply, val_main_v30_apply, val_main_v29_apply, val_main_v32_apply, val_main_v31_apply,
    val_main_call0_v0_apply, val_main_call0_cst_apply]
  unfold Cert.KernelIdeal.Val.scaleBiasRelu
  have e1 : idx_main_v29 i = ix2 (i 0) 0 := funext fun a => Fin.ext (by
    match a with
    | ⟨0, _⟩ => rfl
    | ⟨1, _⟩ => rfl)
  have e2 : shapeCast Cert.KernelIdeal.S1x8 x2 Cert.KernelIdeal.Facts₀.shapeCasts_S8_S1x8 (ix2 0 (i 1)) = x2 (idx_main_v31 (idx_main_v32 i)) := by
    refine shapeCast_apply x2 _ (ix2 0 (i 1)) (idx_main_v31 (idx_main_v32 i)) ?_
    rw [Shape.rowMajor_val_one, Shape.rowMajor_val_two]
    show (i 1).val = 0 * 8 + (i 1).val
    omega
  rw [e1, e2]
  rfl

/-- The second product. -/
theorem dot8 (x0 : (⟨S500000x128, .f32⟩ : BufTy).Contents (Elt Ideal)) (x1 : (⟨S128x8, .f32⟩ : BufTy).Contents (Elt Ideal)) (x2 : (⟨S8, .f32⟩ : BufTy).Contents (Elt Ideal)) (x3 : (⟨S8x1, .f32⟩ : BufTy).Contents (Elt Ideal)) (x5 x6 : (⟨S16000000, .i32⟩ : BufTy).Contents (Elt Ideal)) :
    val_main_v38 (F := Ideal) x0 x1 x2 x3 x5 x6
      = scaleDot8 (val_main_v34 (F := Ideal) x0 x1 x2 x5 x6) (val_main_v35 (F := Ideal) x5) x3 := by
  funext i
  rw [val_main_v38_apply]
  unfold Cert.KernelIdeal.Val.scaleDot8
  refine Finset.sum_congr rfl fun k _ => ?_
  rw [val_main_v37_apply, val_main_v36_apply]
  have e1 : lidx_main_v38 i k = ix2 (i 0) k := funext fun a => Fin.ext (by
    match a with
    | ⟨0, _⟩ => rfl
    | ⟨1, _⟩ => rfl)
  have e2 : ridx_main_v38 i k = ix2 k (i 1) := funext fun a => Fin.ext (by
    match a with
    | ⟨0, _⟩ => rfl
    | ⟨1, _⟩ => rfl)
  have e3 : idx_main_v36 (ix2 (i 0) k) = ix2 (i 0) 0 := funext fun a => Fin.ext (by
    match a with
    | ⟨0, _⟩ => rfl
    | ⟨1, _⟩ => rfl)
  rw [e1, e2, e3]
  rfl

/-- The last scale and bias. -/
theorem fin1 (x0 : (⟨S500000x128, .f32⟩ : BufTy).Contents (Elt Ideal)) (x1 : (⟨S128x8, .f32⟩ : BufTy).Contents (Elt Ideal)) (x2 : (⟨S8, .f32⟩ : BufTy).Contents (Elt Ideal)) (x3 : (⟨S8x1, .f32⟩ : BufTy).Contents (Elt Ideal)) (x4 : (⟨S1, .f32⟩ : BufTy).Contents (Elt Ideal)) (x5 x6 : (⟨S16000000, .i32⟩ : BufTy).Contents (Elt Ideal)) :
    val_main_v53 (F := Ideal) x0 x1 x2 x3 x4 x5 x6
      = scaleBias (val_main_v48 (F := Ideal) x0 x1 x2 x3 x5 x6) (val_main_v49 (F := Ideal) x6)
          (shapeCast Cert.KernelIdeal.S1x1 x4 Cert.KernelIdeal.Facts₀.shapeCasts_S1_S1x1) := by
  funext i
  rw [val_main_v53_apply, val_main_v50_apply, val_main_v52_apply, val_main_v51_apply]
  unfold Cert.KernelIdeal.Val.scaleBias
  have e2 : shapeCast Cert.KernelIdeal.S1x1 x4 Cert.KernelIdeal.Facts₀.shapeCasts_S1_S1x1 (ix2 0 0) = x4 (idx_main_v51 (idx_main_v52 i)) := by
    refine shapeCast_apply x4 _ (ix2 0 0) (idx_main_v51 (idx_main_v52 i)) ?_
    rw [Shape.rowMajor_val_one, Shape.rowMajor_val_two]
    rfl
  rw [e2]
  rfl

/-! ## The reference's result -/

/-- THE REFERENCE'S RESULT is `result` of the seven arguments. -/
theorem ref_result (x0 : (⟨S500000x128, .f32⟩ : BufTy).Contents (Elt Ideal)) (x1 : (⟨S128x8, .f32⟩ : BufTy).Contents (Elt Ideal)) (x2 : (⟨S8, .f32⟩ : BufTy).Contents (Elt Ideal)) (x3 : (⟨S8x1, .f32⟩ : BufTy).Contents (Elt Ideal)) (x4 : (⟨S1, .f32⟩ : BufTy).Contents (Elt Ideal)) (x5 x6 : (⟨S16000000, .i32⟩ : BufTy).Contents (Elt Ideal)) :
    val_main_v53 (F := Ideal) x0 x1 x2 x3 x4 x5 x6 = result x0 x1 x2 x3 x4 x5 x6 := by
  rw [fin1, agg1, dot8, act8, agg8, dot128, col_dst', col_src', col_src, col_dst]
  rfl

end Cert.ReferenceIdeal.RefValue

end
-- ==== Proof.lean ====
/-
  A two-layer graph convolution over 500000 nodes and 16000000 edges: the kernel program (four tiled dense stages among
  the host's degree count, gathers and scatter-adds) against its plain reference, at the extended reals.

  Both programs compute one function of the seven arguments (`Cert.KernelIdeal.Val.result`, Proof/Spec.lean):
    norm(idx)      = 1 / sqrt (max (number of edges whose entry in `idx` is the node) 1)
    layer(H, W, b) = (sum over the edges into a node of ((H ⊙ norm src) · W) at the edge's source) ⊙ norm dst + b
    result         = layer (relu (layer (x, W1, b1)), W2, b2).
  The kernel side: each dense stage's 50 blocks of 10000 rows tile its output array, and a block is the stage's
  whole-array function restricted to those rows (a row-scaled matrix product with a zero accumulator is the sum over
  the contracted axis; scale, bias and relu are entrywise), Proof/Pay*.lean and Proof/Reg*.lean; the segments folded in
  order give the result array, Proof/KRun.lean and Proof/KValue.lean. The reference side: its `dot_general`s are the same
  sums, its broadcasts of the factor and the bias place the same entries as the kernel's reshapes, and the sparse
  operations are the same operations on equal operands, Proof/RefBridge.lean. No law of arithmetic beyond reading each
  operation at an index is used: the two sides group every sum and product alike, so the inputs' finiteness is not needed.
  The kernel's idealization rewrote nothing, so `preserves` is `True`.
-/
import proofs.«113561_j2388001816782_2_alg».proof.Defs
import proofs.«113561_j2388001816782_2_alg».proof.Proof.Gen.Kernel
import proofs.«113561_j2388001816782_2_alg».proof.Proof.Gen.Kernel.Skeleton
import proofs.«113561_j2388001816782_2_alg».proof.Proof.Gen.Kernel.Launch
import proofs.«113561_j2388001816782_2_alg».proof.Proof.Gen.Kernel.Points
import proofs.«113561_j2388001816782_2_alg».proof.Proof.Gen.Kernel.Frame
import proofs.«113561_j2388001816782_2_alg».proof.Proof.Gen.KernelIdeal
import proofs.«113561_j2388001816782_2_alg».proof.Proof.Gen.KernelIdeal.Skeleton
import proofs.«113561_j2388001816782_2_alg».proof.Proof.Gen.KernelIdeal.Launch
import proofs.«113561_j2388001816782_2_alg».proof.Proof.Gen.KernelIdeal.Points
import proofs.«113561_j2388001816782_2_alg».proof.Proof.Gen.KernelIdeal.Frame
import proofs.«113561_j2388001816782_2_alg».proof.Proof.Gen.ReferenceIdeal
import proofs.«113561_j2388001816782_2_alg».proof.Proof.Gen.ReferenceIdeal.Run
import proofs.«113561_j2388001816782_2_alg».proof.Proof.Gen.ReferenceIdeal.Read
import proofs.«113561_j2388001816782_2_alg».proof.Proof.Gen.Pre_finite_inputs
import proofs.«113561_j2388001816782_2_alg».proof.Proof.KRun
import proofs.«113561_j2388001816782_2_alg».proof.Proof.KValue
import proofs.«113561_j2388001816782_2_alg».proof.Proof.RefBridge
import Idealize.ShloMosaic.Adequacy
import Idealize.ShloMosaic.Init

noncomputable section

namespace Cert.Proof

open Idealize.ShloMosaic Idealize.SL.Sem

/-- The kernel program as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `result` of the arguments. -/
theorem algebraic : Cert.algebraic_KernelIdeal_ReferenceIdeal := by
  intro m ρ m' ρ' _ hagree
  refine ⟨fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.W7_result m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v53_eq m' c).trans ((Cert.ReferenceIdeal.RefValue.ref_result _ _ _ _ _ _ _).trans ?_)
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
